-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10 : Shape := ⟨1, ![10]⟩
abbrev S10x6 : Shape := ⟨2, ![10, 6]⟩
abbrev S10077696x6 : Shape := ⟨2, ![10077696, 6]⟩
abbrev S_ : Shape := ⟨0, ![]⟩

class Facts : Prop where
  bcast_S_S10 : S_.BroadcastsInDim S10 (![] : Fin 0 → Fin S10.rank)
  reducesTo_S10_S_d0 : S10.ReducesTo [0] S_
  h_S_ : 0 < S_.numel
  bcast_S_S10x6 : S_.BroadcastsInDim S10x6 (![] : Fin 0 → Fin S10x6.rank)
  reducesTo_S10x6_S_d0_1 : S10x6.ReducesTo [0, 1] S_
  bcast_S_S10077696x6 : S_.BroadcastsInDim S10077696x6 (![] : Fin 0 → Fin S10077696x6.rank)
  reducesTo_S10077696x6_S_d0_1 : S10077696x6.ReducesTo [0, 1] S_

variable [Facts]

def fn_part1 {F : FTy → Type} [FloatOps F] (main_v13 : IVec S_ 1) (main_v16 : IVec S10077696x6 1) : IVec S_ 1 :=
  let main_c_5 : IVec S_ 1 := constantI S_ 1 1#1
  let main_v17 : IVec S_ 1 := (fun x v => Host.reduce IntOp.andi x v reducesTo_S10077696x6_S_d0_1 h_S_) main_v16 main_c_5
  let main_v18 : IVec S_ 1 := andi main_v13 main_v17
  main_v18

def fn {F : FTy → Type} [FloatOps F] (main_arg0 : FVec F S10 .f32) (main_arg1 : FVec F S10x6 .f32) (main_arg2 : FVec F S10x6 .f32) (main_arg3 : FVec F S10077696x6 .f32) : IVec S_ 1 :=
  let main_v0 : FVec F S10 .f32 := Host.absf main_arg0
  let main_cst : FVec F S_ .f32 := constant S_ .f32 0x7F800000#32
  let main_v1 : FVec F S10 .f32 := broadcastInDim S10 ![] bcast_S_S10 main_cst
  let main_v2 : IVec S10 1 := cmpf .olt main_v0 main_v1
  let main_c : IVec S_ 1 := constantI S_ 1 1#1
  let main_v3 : IVec S_ 1 := (fun x v => Host.reduce IntOp.andi x v reducesTo_S10_S_d0 h_S_) main_v2 main_c
  let main_v4 : FVec F S10x6 .f32 := Host.absf main_arg1
  let main_cst_0 : FVec F S_ .f32 := constant S_ .f32 0x7F800000#32
  let main_v5 : FVec F S10x6 .f32 := broadcastInDim S10x6 ![] bcast_S_S10x6 main_cst_0
  let main_v6 : IVec S10x6 1 := cmpf .olt main_v4 main_v5
  let main_c_1 : IVec S_ 1 := constantI S_ 1 1#1
  let main_v7 : IVec S_ 1 := (fun x v => Host.reduce IntOp.andi x v reducesTo_S10x6_S_d0_1 h_S_) main_v6 main_c_1
  let main_v8 : IVec S_ 1 := andi main_v3 main_v7
  let main_v9 : FVec F S10x6 .f32 := Host.absf main_arg2
  let main_cst_2 : FVec F S_ .f32 := constant S_ .f32 0x7F800000#32
  let main_v10 : FVec F S10x6 .f32 := broadcastInDim S10x6 ![] bcast_S_S10x6 main_cst_2
  let main_v11 : IVec S10x6 1 := cmpf .olt main_v9 main_v10
  let main_c_3 : IVec S_ 1 := constantI S_ 1 1#1
  let main_v12 : IVec S_ 1 := (fun x v => Host.reduce IntOp.andi x v reducesTo_S10x6_S_d0_1 h_S_) main_v11 main_c_3
  let main_v13 : IVec S_ 1 := andi main_v8 main_v12
  let main_v14 : FVec F S10077696x6 .f32 := Host.absf main_arg3
  let main_cst_4 : FVec F S_ .f32 := constant S_ .f32 0x7F800000#32
  let main_v15 : FVec F S10077696x6 .f32 := broadcastInDim S10077696x6 ![] bcast_S_S10077696x6 main_cst_4
  let main_v16 : IVec S10077696x6 1 := cmpf .olt main_v14 main_v15
  fn_part1 (F := F) main_v13 main_v16
-- ==== Kernel.lean ====
abbrev S10 : Shape := ⟨1, ![10]⟩
abbrev S10x6 : Shape := ⟨2, ![10, 6]⟩
abbrev S10077696x6 : Shape := ⟨2, ![10077696, 6]⟩
abbrev S10x1 : Shape := ⟨2, ![10, 1]⟩
abbrev S_ : Shape := ⟨0, ![]⟩
abbrev S1x6 : Shape := ⟨2, ![1, 6]⟩
abbrev S6 : Shape := ⟨1, ![6]⟩
abbrev S6x1 : Shape := ⟨2, ![6, 1]⟩
abbrev S6x6 : Shape := ⟨2, ![6, 6]⟩
abbrev S36 : Shape := ⟨1, ![36]⟩
abbrev S36x1 : Shape := ⟨2, ![36, 1]⟩
abbrev S36x6 : Shape := ⟨2, ![36, 6]⟩
abbrev S216 : Shape := ⟨1, ![216]⟩
abbrev S216x1 : Shape := ⟨2, ![216, 1]⟩
abbrev S216x6 : Shape := ⟨2, ![216, 6]⟩
abbrev S1296 : Shape := ⟨1, ![1296]⟩
abbrev S1296x1 : Shape := ⟨2, ![1296, 1]⟩
abbrev S1296x6 : Shape := ⟨2, ![1296, 6]⟩
abbrev S7776 : Shape := ⟨1, ![7776]⟩
abbrev S7776x1 : Shape := ⟨2, ![7776, 1]⟩
abbrev S7776x6 : Shape := ⟨2, ![7776, 6]⟩
abbrev S46656 : Shape := ⟨1, ![46656]⟩
abbrev S46656x1 : Shape := ⟨2, ![46656, 1]⟩
abbrev S46656x6 : Shape := ⟨2, ![46656, 6]⟩
abbrev S279936 : Shape := ⟨1, ![279936]⟩
abbrev S216x279936 : Shape := ⟨2, ![216, 279936]⟩
abbrev S1x279936 : Shape := ⟨2, ![1, 279936]⟩
abbrev S112x10368 : Shape := ⟨2, ![112, 10368]⟩
abbrev S1x10368 : Shape := ⟨2, ![1, 10368]⟩
abbrev S112x1 : Shape := ⟨2, ![112, 1]⟩
abbrev S112 : Shape := ⟨1, ![112]⟩

abbrev nBuf : Space → Nat
  | .hbm => 96
  | .vmem => 7
  | .smem => 0
  | _ => 0

abbrev bufTy : (tb : Table) → Fin (tcTables nBuf tb) → BufTy
  | .hbm, ⟨0, _⟩ => ⟨S10, .f32⟩
  | .hbm, ⟨1, _⟩ => ⟨S10x6, .f32⟩
  | .hbm, ⟨2, _⟩ => ⟨S10x6, .f32⟩
  | .hbm, ⟨3, _⟩ => ⟨S10077696x6, .f32⟩
  | .hbm, ⟨4, _⟩ => ⟨S10x1, .f32⟩
  | .hbm, ⟨5, _⟩ => ⟨S10x6, .f32⟩
  | .hbm, ⟨6, _⟩ => ⟨S10x6, .f32⟩
  | .hbm, ⟨7, _⟩ => ⟨S10x6, .f32⟩
  | .hbm, ⟨8, _⟩ => ⟨S10x6, .f32⟩
  | .hbm, ⟨9, _⟩ => ⟨S10x6, .f32⟩
  | .hbm, ⟨10, _⟩ => ⟨S_, .f32⟩
  | .hbm, ⟨11, _⟩ => ⟨S10x6, .f32⟩
  | .hbm, ⟨12, _⟩ => ⟨S10x6, .f32⟩
  | .hbm, ⟨13, _⟩ => ⟨S10x6, .f32⟩
  | .hbm, ⟨14, _⟩ => ⟨S10x6, .f32⟩
  | .hbm, ⟨15, _⟩ => ⟨S1x6, .f32⟩
  | .hbm, ⟨16, _⟩ => ⟨S6, .f32⟩
  | .hbm, ⟨17, _⟩ => ⟨S6x1, .f32⟩
  | .hbm, ⟨18, _⟩ => ⟨S1x6, .f32⟩
  | .hbm, ⟨19, _⟩ => ⟨S6, .f32⟩
  | .hbm, ⟨20, _⟩ => ⟨S1x6, .f32⟩
  | .hbm, ⟨21, _⟩ => ⟨S6x6, .f32⟩
  | .hbm, ⟨22, _⟩ => ⟨S6x6, .f32⟩
  | .hbm, ⟨23, _⟩ => ⟨S6x6, .f32⟩
  | .hbm, ⟨24, _⟩ => ⟨S36, .f32⟩
  | .hbm, ⟨25, _⟩ => ⟨S36x1, .f32⟩
  | .hbm, ⟨26, _⟩ => ⟨S1x6, .f32⟩
  | .hbm, ⟨27, _⟩ => ⟨S6, .f32⟩
  | .hbm, ⟨28, _⟩ => ⟨S1x6, .f32⟩
  | .hbm, ⟨29, _⟩ => ⟨S36x6, .f32⟩
  | .hbm, ⟨30, _⟩ => ⟨S36x6, .f32⟩
  | .hbm, ⟨31, _⟩ => ⟨S36x6, .f32⟩
  | .hbm, ⟨32, _⟩ => ⟨S216, .f32⟩
  | .hbm, ⟨33, _⟩ => ⟨S1x6, .f32⟩
  | .hbm, ⟨34, _⟩ => ⟨S6, .f32⟩
  | .hbm, ⟨35, _⟩ => ⟨S6x1, .f32⟩
  | .hbm, ⟨36, _⟩ => ⟨S1x6, .f32⟩
  | .hbm, ⟨37, _⟩ => ⟨S6, .f32⟩
  | .hbm, ⟨38, _⟩ => ⟨S1x6, .f32⟩
  | .hbm, ⟨39, _⟩ => ⟨S6x6, .f32⟩
  | .hbm, ⟨40, _⟩ => ⟨S6x6, .f32⟩
  | .hbm, ⟨41, _⟩ => ⟨S6x6, .f32⟩
  | .hbm, ⟨42, _⟩ => ⟨S36, .f32⟩
  | .hbm, ⟨43, _⟩ => ⟨S36x1, .f32⟩
  | .hbm, ⟨44, _⟩ => ⟨S1x6, .f32⟩
  | .hbm, ⟨45, _⟩ => ⟨S6, .f32⟩
  | .hbm, ⟨46, _⟩ => ⟨S1x6, .f32⟩
  | .hbm, ⟨47, _⟩ => ⟨S36x6, .f32⟩
  | .hbm, ⟨48, _⟩ => ⟨S36x6, .f32⟩
  | .hbm, ⟨49, _⟩ => ⟨S36x6, .f32⟩
  | .hbm, ⟨50, _⟩ => ⟨S216, .f32⟩
  | .hbm, ⟨51, _⟩ => ⟨S216x1, .f32⟩
  | .hbm, ⟨52, _⟩ => ⟨S1x6, .f32⟩
  | .hbm, ⟨53, _⟩ => ⟨S6, .f32⟩
  | .hbm, ⟨54, _⟩ => ⟨S1x6, .f32⟩
  | .hbm, ⟨55, _⟩ => ⟨S216x6, .f32⟩
  | .hbm, ⟨56, _⟩ => ⟨S216x6, .f32⟩
  | .hbm, ⟨57, _⟩ => ⟨S216x6, .f32⟩
  | .hbm, ⟨58, _⟩ => ⟨S1296, .f32⟩
  | .hbm, ⟨59, _⟩ => ⟨S1296x1, .f32⟩
  | .hbm, ⟨60, _⟩ => ⟨S1x6, .f32⟩
  | .hbm, ⟨61, _⟩ => ⟨S6, .f32⟩
  | .hbm, ⟨62, _⟩ => ⟨S1x6, .f32⟩
  | .hbm, ⟨63, _⟩ => ⟨S1296x6, .f32⟩
  | .hbm, ⟨64, _⟩ => ⟨S1296x6, .f32⟩
  | .hbm, ⟨65, _⟩ => ⟨S1296x6, .f32⟩
  | .hbm, ⟨66, _⟩ => ⟨S7776, .f32⟩
  | .hbm, ⟨67, _⟩ => ⟨S7776x1, .f32⟩
  | .hbm, ⟨68, _⟩ => ⟨S1x6, .f32⟩
  | .hbm, ⟨69, _⟩ => ⟨S6, .f32⟩
  | .hbm, ⟨70, _⟩ => ⟨S1x6, .f32⟩
  | .hbm, ⟨71, _⟩ => ⟨S7776x6, .f32⟩
  | .hbm, ⟨72, _⟩ => ⟨S7776x6, .f32⟩
  | .hbm, ⟨73, _⟩ => ⟨S7776x6, .f32⟩
  | .hbm, ⟨74, _⟩ => ⟨S46656, .f32⟩
  | .hbm, ⟨75, _⟩ => ⟨S46656x1, .f32⟩
  | .hbm, ⟨76, _⟩ => ⟨S1x6, .f32⟩
  | .hbm, ⟨77, _⟩ => ⟨S6, .f32⟩
  | .hbm, ⟨78, _⟩ => ⟨S1x6, .f32⟩
  | .hbm, ⟨79, _⟩ => ⟨S46656x6, .f32⟩
  | .hbm, ⟨80, _⟩ => ⟨S46656x6, .f32⟩
  | .hbm, ⟨81, _⟩ => ⟨S46656x6, .f32⟩
  | .hbm, ⟨82, _⟩ => ⟨S279936, .f32⟩
  | .hbm, ⟨83, _⟩ => ⟨S216x279936, .f32⟩
  | .hbm, ⟨84, _⟩ => ⟨S1x279936, .f32⟩
  | .hbm, ⟨85, _⟩ => ⟨S216x1, .f32⟩
  | .hbm, ⟨86, _⟩ => ⟨S216, .f32⟩
  | .hbm, ⟨87, _⟩ => ⟨S216, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .local _ .vmem, ⟨0, _⟩ => ⟨S112x10368, .f32⟩
  | .local _ .vmem, ⟨1, _⟩ => ⟨S112x10368, .f32⟩
  | .local _ .vmem, ⟨2, _⟩ => ⟨S1x10368, .f32⟩
  | .local _ .vmem, ⟨3, _⟩ => ⟨S1x10368, .f32⟩
  | .local _ .vmem, ⟨4, _⟩ => ⟨S112x1, .f32⟩
  | .local _ .vmem, ⟨5, _⟩ => ⟨S112x1, .f32⟩
  | .local _ .vmem, ⟨6, _⟩ => ⟨S112x1, .f32⟩
  | _, _ => ⟨S10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_cst_0 : Ref sig .tc := ⟨.hbm, 88, rfl⟩
abbrev main_v83 : Ref sig .tc := ⟨.hbm, 89, rfl⟩
abbrev main_cst_1 : Ref sig .tc := ⟨.hbm, 90, rfl⟩
abbrev main_v84 : Ref sig .tc := ⟨.hbm, 91, rfl⟩
abbrev main_cst_2 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 27], ![false, false]⟩

def k0_cond2 (i : grid0.Coords) : BitVec 1 :=
  let arg1 : BitVec 32 := BitVec.ofNat 32 (i 1).val
  let c26_i32 : BitVec 32 := 26#32
  let v16 : BitVec 1 := Scalar.cmpi .eq arg1 c26_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S112x10368 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10368 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S112x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S10_S10x1_0 : S10.BroadcastsInDim S10x1 (![0] : Fin 1 → Fin S10x1.rank)
  bcast_S10x1_S10x6_0_1 : S10x1.BroadcastsInDim S10x6 (![0, 1] : Fin 2 → Fin S10x6.rank)
  bcast_S_S10x6 : S_.BroadcastsInDim S10x6 (![] : Fin 0 → Fin S10x6.rank)
  slices_S10x6_S1x6_0_0 : S10x6.Slices ![0, 0] S1x6
  shapeCasts_S1x6_S6 : S1x6.ShapeCasts S6
  bcast_S6_S6x1_0 : S6.BroadcastsInDim S6x1 (![0] : Fin 1 → Fin S6x1.rank)
  slices_S10x6_S1x6_1_0 : S10x6.Slices ![1, 0] S1x6
  bcast_S6_S1x6_1 : S6.BroadcastsInDim S1x6 (![1] : Fin 1 → Fin S1x6.rank)
  bcast_S6x1_S6x6_0_1 : S6x1.BroadcastsInDim S6x6 (![0, 1] : Fin 2 → Fin S6x6.rank)
  bcast_S1x6_S6x6_0_1 : S1x6.BroadcastsInDim S6x6 (![0, 1] : Fin 2 → Fin S6x6.rank)
  shapeCasts_S6x6_S36 : S6x6.ShapeCasts S36
  bcast_S36_S36x1_0 : S36.BroadcastsInDim S36x1 (![0] : Fin 1 → Fin S36x1.rank)
  slices_S10x6_S1x6_2_0 : S10x6.Slices ![2, 0] S1x6
  bcast_S36x1_S36x6_0_1 : S36x1.BroadcastsInDim S36x6 (![0, 1] : Fin 2 → Fin S36x6.rank)
  bcast_S1x6_S36x6_0_1 : S1x6.BroadcastsInDim S36x6 (![0, 1] : Fin 2 → Fin S36x6.rank)
  shapeCasts_S36x6_S216 : S36x6.ShapeCasts S216
  slices_S10x6_S1x6_3_0 : S10x6.Slices ![3, 0] S1x6
  slices_S10x6_S1x6_4_0 : S10x6.Slices ![4, 0] S1x6
  slices_S10x6_S1x6_5_0 : S10x6.Slices ![5, 0] S1x6
  bcast_S216_S216x1_0 : S216.BroadcastsInDim S216x1 (![0] : Fin 1 → Fin S216x1.rank)
  slices_S10x6_S1x6_6_0 : S10x6.Slices ![6, 0] S1x6
  bcast_S216x1_S216x6_0_1 : S216x1.BroadcastsInDim S216x6 (![0, 1] : Fin 2 → Fin S216x6.rank)
  bcast_S1x6_S216x6_0_1 : S1x6.BroadcastsInDim S216x6 (![0, 1] : Fin 2 → Fin S216x6.rank)
  shapeCasts_S216x6_S1296 : S216x6.ShapeCasts S1296
  bcast_S1296_S1296x1_0 : S1296.BroadcastsInDim S1296x1 (![0] : Fin 1 → Fin S1296x1.rank)
  slices_S10x6_S1x6_7_0 : S10x6.Slices ![7, 0] S1x6
  bcast_S1296x1_S1296x6_0_1 : S1296x1.BroadcastsInDim S1296x6 (![0, 1] : Fin 2 → Fin S1296x6.rank)
  bcast_S1x6_S1296x6_0_1 : S1x6.BroadcastsInDim S1296x6 (![0, 1] : Fin 2 → Fin S1296x6.rank)
  shapeCasts_S1296x6_S7776 : S1296x6.ShapeCasts S7776
  bcast_S7776_S7776x1_0 : S7776.BroadcastsInDim S7776x1 (![0] : Fin 1 → Fin S7776x1.rank)
  slices_S10x6_S1x6_8_0 : S10x6.Slices ![8, 0] S1x6
  bcast_S7776x1_S7776x6_0_1 : S7776x1.BroadcastsInDim S7776x6 (![0, 1] : Fin 2 → Fin S7776x6.rank)
  bcast_S1x6_S7776x6_0_1 : S1x6.BroadcastsInDim S7776x6 (![0, 1] : Fin 2 → Fin S7776x6.rank)
  shapeCasts_S7776x6_S46656 : S7776x6.ShapeCasts S46656
  bcast_S46656_S46656x1_0 : S46656.BroadcastsInDim S46656x1 (![0] : Fin 1 → Fin S46656x1.rank)
  slices_S10x6_S1x6_9_0 : S10x6.Slices ![9, 0] S1x6
  bcast_S46656x1_S46656x6_0_1 : S46656x1.BroadcastsInDim S46656x6 (![0, 1] : Fin 2 → Fin S46656x6.rank)
  bcast_S1x6_S46656x6_0_1 : S1x6.BroadcastsInDim S46656x6 (![0, 1] : Fin 2 → Fin S46656x6.rank)
  shapeCasts_S46656x6_S279936 : S46656x6.ShapeCasts S279936
  shapeCasts_S10077696x6_S216x279936 : S10077696x6.ShapeCasts S216x279936
  shapeCasts_S279936_S1x279936 : S279936.ShapeCasts S1x279936
  inb_S112x1_S112x1_0_0 : ∀ a, (![0, 0] : Fin 2 → Nat) a + S112x1.size a ≤ S112x1.size a
  h_S112x1 : 0 < S112x1.numel
  shapeCasts_S112x1_S112x1 : S112x1.ShapeCasts S112x1
  inb_S112x10368_S112x10368_0_0 : ∀ a, (![0, 0] : Fin 2 → Nat) a + S112x10368.size a ≤ S112x10368.size a
  h_S112x10368 : 0 < S112x10368.numel
  shapeCasts_S112x10368_S112x10368 : S112x10368.ShapeCasts S112x10368
  inb_S1x10368_S1x10368_0_0 : ∀ a, (![0, 0] : Fin 2 → Nat) a + S1x10368.size a ≤ S1x10368.size a
  h_S1x10368 : 0 < S1x10368.numel
  shapeCasts_S1x10368_S1x10368 : S1x10368.ShapeCasts S1x10368
  broadcasts_S1x10368_S112x10368 : S1x10368.Broadcasts S112x10368
  reduces_S112x10368_S112 : S112x10368.Reduces [1] S112
  shapeCasts_S112_S112x1 : S112.ShapeCasts S112x1
  shapeCasts_S216x1_S216 : S216x1.ShapeCasts S216
  reducesTo_S216_S_d0 : S216.ReducesTo [0] S_
  h_S_ : 0 < S_.numel
  reducesTo_S279936_S_d0 : S279936.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S112x10368.size a < S216x279936.size a
  hwx0_0 : ∀ i : grid0.Coords, EltTy.bits .f32 = 32 ∨ (Rect.unit (s := S216x279936) (fun a => cc0_transform_0 i a * S112x10368.size a) (fun a => (Pipeline.Clip.of (cc0_transform_0 i a) (S112x10368.size a) (S216x279936.size a)).extent (S112x10368.size a)) fun a => Pipeline.Clip.inb (Pipeline.Clip.ok_of (hstart0_0 i a))).WholeWords (EltTy.packing .f32)
  hwxs0_0 : ∀ i : grid0.Coords, EltTy.bits .f32 = 32 ∨ (Rect.unit (s := S112x10368) (fun _ => 0) (fun a => (Pipeline.Clip.of (cc0_transform_0 i a) (S112x10368.size a) (S216x279936.size a)).extent (S112x10368.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10368.size a ≤ S1x279936.size a
  hwx0_1 : ∀ i : grid0.Coords, EltTy.bits .f32 = 32 ∨ (Rect.block (s := S1x279936) S1x10368.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S112x1.size a < S216x1.size a
  hwx0_2 : ∀ i : grid0.Coords, EltTy.bits .f32 = 32 ∨ (Rect.unit (s := S216x1) (fun a => cc0_transform_2 i a * S112x1.size a) (fun a => (Pipeline.Clip.of (cc0_transform_2 i a) (S112x1.size a) (S216x1.size a)).extent (S112x1.size a)) fun a => Pipeline.Clip.inb (Pipeline.Clip.ok_of (hstart0_2 i a))).WholeWords (EltTy.packing .f32)
  hwxs0_2 : ∀ i : grid0.Coords, EltTy.bits .f32 = 32 ∨ (Rect.unit (s := S112x1) (fun _ => 0) (fun a => (Pipeline.Clip.of (cc0_transform_2 i a) (S112x1.size a) (S216x1.size a)).extent (S112x1.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_v78) S112x10368.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v79) S1x10368.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v80) S112x1.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S10 : Shape := ⟨1, ![10]⟩
abbrev S10x6 : Shape := ⟨2, ![10, 6]⟩
abbrev S10077696x6 : Shape := ⟨2, ![10077696, 6]⟩
abbrev S10x1 : Shape := ⟨2, ![10, 1]⟩
abbrev S_ : Shape := ⟨0, ![]⟩
abbrev S1x6 : Shape := ⟨2, ![1, 6]⟩
abbrev S6 : Shape := ⟨1, ![6]⟩
abbrev S6x1 : Shape := ⟨2, ![6, 1]⟩
abbrev S6x6 : Shape := ⟨2, ![6, 6]⟩
abbrev S36 : Shape := ⟨1, ![36]⟩
abbrev S36x1 : Shape := ⟨2, ![36, 1]⟩
abbrev S36x6 : Shape := ⟨2, ![36, 6]⟩
abbrev S216 : Shape := ⟨1, ![216]⟩
abbrev S216x1 : Shape := ⟨2, ![216, 1]⟩
abbrev S216x6 : Shape := ⟨2, ![216, 6]⟩
abbrev S1296 : Shape := ⟨1, ![1296]⟩
abbrev S1296x1 : Shape := ⟨2, ![1296, 1]⟩
abbrev S1296x6 : Shape := ⟨2, ![1296, 6]⟩
abbrev S7776 : Shape := ⟨1, ![7776]⟩
abbrev S7776x1 : Shape := ⟨2, ![7776, 1]⟩
abbrev S7776x6 : Shape := ⟨2, ![7776, 6]⟩
abbrev S46656 : Shape := ⟨1, ![46656]⟩
abbrev S46656x1 : Shape := ⟨2, ![46656, 1]⟩
abbrev S46656x6 : Shape := ⟨2, ![46656, 6]⟩
abbrev S279936 : Shape := ⟨1, ![279936]⟩
abbrev S279936x1 : Shape := ⟨2, ![279936, 1]⟩
abbrev S279936x6 : Shape := ⟨2, ![279936, 6]⟩
abbrev S1679616 : Shape := ⟨1, ![1679616]⟩
abbrev S1679616x1 : Shape := ⟨2, ![1679616, 1]⟩
abbrev S1679616x6 : Shape := ⟨2, ![1679616, 6]⟩
abbrev S10077696 : Shape := ⟨1, ![10077696]⟩
abbrev S10077696x1 : Shape := ⟨2, ![10077696, 1]⟩
abbrev S60466176 : Shape := ⟨1, ![60466176]⟩

abbrev nBuf : Space → Nat
  | .hbm => 96
  | .vmem => 0
  | .smem => 0
  | _ => 0

abbrev bufTy : (tb : Table) → Fin (tcTables nBuf tb) → BufTy
  | .hbm, ⟨0, _⟩ => ⟨S10, .f32⟩
  | .hbm, ⟨1, _⟩ => ⟨S10x6, .f32⟩
  | .hbm, ⟨2, _⟩ => ⟨S10x6, .f32⟩
  | .hbm, ⟨3, _⟩ => ⟨S10077696x6, .f32⟩
  | .hbm, ⟨4, _⟩ => ⟨S10x1, .f32⟩
  | .hbm, ⟨5, _⟩ => ⟨S10x6, .f32⟩
  | .hbm, ⟨6, _⟩ => ⟨S10x6, .f32⟩
  | .hbm, ⟨7, _⟩ => ⟨S10x6, .f32⟩
  | .hbm, ⟨8, _⟩ => ⟨S10x6, .f32⟩
  | .hbm, ⟨9, _⟩ => ⟨S10x6, .f32⟩
  | .hbm, ⟨10, _⟩ => ⟨S_, .f32⟩
  | .hbm, ⟨11, _⟩ => ⟨S10x6, .f32⟩
  | .hbm, ⟨12, _⟩ => ⟨S10x6, .f32⟩
  | .hbm, ⟨13, _⟩ => ⟨S10x6, .f32⟩
  | .hbm, ⟨14, _⟩ => ⟨S10x6, .f32⟩
  | .hbm, ⟨15, _⟩ => ⟨S1x6, .f32⟩
  | .hbm, ⟨16, _⟩ => ⟨S6, .f32⟩
  | .hbm, ⟨17, _⟩ => ⟨S6x1, .f32⟩
  | .hbm, ⟨18, _⟩ => ⟨S1x6, .f32⟩
  | .hbm, ⟨19, _⟩ => ⟨S6, .f32⟩
  | .hbm, ⟨20, _⟩ => ⟨S1x6, .f32⟩
  | .hbm, ⟨21, _⟩ => ⟨S6x6, .f32⟩
  | .hbm, ⟨22, _⟩ => ⟨S6x6, .f32⟩
  | .hbm, ⟨23, _⟩ => ⟨S6x6, .f32⟩
  | .hbm, ⟨24, _⟩ => ⟨S36, .f32⟩
  | .hbm, ⟨25, _⟩ => ⟨S36x1, .f32⟩
  | .hbm, ⟨26, _⟩ => ⟨S1x6, .f32⟩
  | .hbm, ⟨27, _⟩ => ⟨S6, .f32⟩
  | .hbm, ⟨28, _⟩ => ⟨S1x6, .f32⟩
  | .hbm, ⟨29, _⟩ => ⟨S36x6, .f32⟩
  | .hbm, ⟨30, _⟩ => ⟨S36x6, .f32⟩
  | .hbm, ⟨31, _⟩ => ⟨S36x6, .f32⟩
  | .hbm, ⟨32, _⟩ => ⟨S216, .f32⟩
  | .hbm, ⟨33, _⟩ => ⟨S216x1, .f32⟩
  | .hbm, ⟨34, _⟩ => ⟨S1x6, .f32⟩
  | .hbm, ⟨35, _⟩ => ⟨S6, .f32⟩
  | .hbm, ⟨36, _⟩ => ⟨S1x6, .f32⟩
  | .hbm, ⟨37, _⟩ => ⟨S216x6, .f32⟩
  | .hbm, ⟨38, _⟩ => ⟨S216x6, .f32⟩
  | .hbm, ⟨39, _⟩ => ⟨S216x6, .f32⟩
  | .hbm, ⟨40, _⟩ => ⟨S1296, .f32⟩
  | .hbm, ⟨41, _⟩ => ⟨S1296x1, .f32⟩
  | .hbm, ⟨42, _⟩ => ⟨S1x6, .f32⟩
  | .hbm, ⟨43, _⟩ => ⟨S6, .f32⟩
  | .hbm, ⟨44, _⟩ => ⟨S1x6, .f32⟩
  | .hbm, ⟨45, _⟩ => ⟨S1296x6, .f32⟩
  | .hbm, ⟨46, _⟩ => ⟨S1296x6, .f32⟩
  | .hbm, ⟨47, _⟩ => ⟨S1296x6, .f32⟩
  | .hbm, ⟨48, _⟩ => ⟨S7776, .f32⟩
  | .hbm, ⟨49, _⟩ => ⟨S7776x1, .f32⟩
  | .hbm, ⟨50, _⟩ => ⟨S1x6, .f32⟩
  | .hbm, ⟨51, _⟩ => ⟨S6, .f32⟩
  | .hbm, ⟨52, _⟩ => ⟨S1x6, .f32⟩
  | .hbm, ⟨53, _⟩ => ⟨S7776x6, .f32⟩
  | .hbm, ⟨54, _⟩ => ⟨S7776x6, .f32⟩
  | .hbm, ⟨55, _⟩ => ⟨S7776x6, .f32⟩
  | .hbm, ⟨56, _⟩ => ⟨S46656, .f32⟩
  | .hbm, ⟨57, _⟩ => ⟨S46656x1, .f32⟩
  | .hbm, ⟨58, _⟩ => ⟨S1x6, .f32⟩
  | .hbm, ⟨59, _⟩ => ⟨S6, .f32⟩
  | .hbm, ⟨60, _⟩ => ⟨S1x6, .f32⟩
  | .hbm, ⟨61, _⟩ => ⟨S46656x6, .f32⟩
  | .hbm, ⟨62, _⟩ => ⟨S46656x6, .f32⟩
  | .hbm, ⟨63, _⟩ => ⟨S46656x6, .f32⟩
  | .hbm, ⟨64, _⟩ => ⟨S279936, .f32⟩
  | .hbm, ⟨65, _⟩ => ⟨S279936x1, .f32⟩
  | .hbm, ⟨66, _⟩ => ⟨S1x6, .f32⟩
  | .hbm, ⟨67, _⟩ => ⟨S6, .f32⟩
  | .hbm, ⟨68, _⟩ => ⟨S1x6, .f32⟩
  | .hbm, ⟨69, _⟩ => ⟨S279936x6, .f32⟩
  | .hbm, ⟨70, _⟩ => ⟨S279936x6, .f32⟩
  | .hbm, ⟨71, _⟩ => ⟨S279936x6, .f32⟩
  | .hbm, ⟨72, _⟩ => ⟨S1679616, .f32⟩
  | .hbm, ⟨73, _⟩ => ⟨S1679616x1, .f32⟩
  | .hbm, ⟨74, _⟩ => ⟨S1x6, .f32⟩
  | .hbm, ⟨75, _⟩ => ⟨S6, .f32⟩
  | .hbm, ⟨76, _⟩ => ⟨S1x6, .f32⟩
  | .hbm, ⟨77, _⟩ => ⟨S1679616x6, .f32⟩
  | .hbm, ⟨78, _⟩ => ⟨S1679616x6, .f32⟩
  | .hbm, ⟨79, _⟩ => ⟨S1679616x6, .f32⟩
  | .hbm, ⟨80, _⟩ => ⟨S10077696, .f32⟩
  | .hbm, ⟨81, _⟩ => ⟨S10077696x1, .f32⟩
  | .hbm, ⟨82, _⟩ => ⟨S1x6, .f32⟩
  | .hbm, ⟨83, _⟩ => ⟨S6, .f32⟩
  | .hbm, ⟨84, _⟩ => ⟨S1x6, .f32⟩
  | .hbm, ⟨85, _⟩ => ⟨S10077696x6, .f32⟩
  | .hbm, ⟨86, _⟩ => ⟨S10077696x6, .f32⟩
  | .hbm, ⟨87, _⟩ => ⟨S10077696x6, .f32⟩
  | .hbm, ⟨88, _⟩ => ⟨S60466176, .f32⟩
  | .hbm, ⟨89, _⟩ => ⟨S60466176, .f32⟩
  | .hbm, ⟨90, _⟩ => ⟨S60466176, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_cst_0 : Ref sig .tc := ⟨.hbm, 91, rfl⟩
abbrev main_v86 : Ref sig .tc := ⟨.hbm, 92, rfl⟩
abbrev main_cst_1 : Ref sig .tc := ⟨.hbm, 93, rfl⟩
abbrev main_v87 : Ref sig .tc := ⟨.hbm, 94, rfl⟩
abbrev main_v88 : Ref sig .tc := ⟨.hbm, 95, rfl⟩

abbrev nD : Nat := 1
abbrev τ : Topo := Topo.v7x

variable {F : FTy → Type} [FloatOps F]

class Facts₀ : Prop where
  bcast_S10_S10x1_0 : S10.BroadcastsInDim S10x1 (![0] : Fin 1 → Fin S10x1.rank)
  bcast_S10x1_S10x6_0_1 : S10x1.BroadcastsInDim S10x6 (![0, 1] : Fin 2 → Fin S10x6.rank)
  bcast_S_S10x6 : S_.BroadcastsInDim S10x6 (![] : Fin 0 → Fin S10x6.rank)
  slices_S10x6_S1x6_0_0 : S10x6.Slices ![0, 0] S1x6
  shapeCasts_S1x6_S6 : S1x6.ShapeCasts S6
  bcast_S6_S6x1_0 : S6.BroadcastsInDim S6x1 (![0] : Fin 1 → Fin S6x1.rank)
  slices_S10x6_S1x6_1_0 : S10x6.Slices ![1, 0] S1x6
  bcast_S6_S1x6_1 : S6.BroadcastsInDim S1x6 (![1] : Fin 1 → Fin S1x6.rank)
  bcast_S6x1_S6x6_0_1 : S6x1.BroadcastsInDim S6x6 (![0, 1] : Fin 2 → Fin S6x6.rank)
  bcast_S1x6_S6x6_0_1 : S1x6.BroadcastsInDim S6x6 (![0, 1] : Fin 2 → Fin S6x6.rank)
  shapeCasts_S6x6_S36 : S6x6.ShapeCasts S36
  bcast_S36_S36x1_0 : S36.BroadcastsInDim S36x1 (![0] : Fin 1 → Fin S36x1.rank)
  slices_S10x6_S1x6_2_0 : S10x6.Slices ![2, 0] S1x6
  bcast_S36x1_S36x6_0_1 : S36x1.BroadcastsInDim S36x6 (![0, 1] : Fin 2 → Fin S36x6.rank)
  bcast_S1x6_S36x6_0_1 : S1x6.BroadcastsInDim S36x6 (![0, 1] : Fin 2 → Fin S36x6.rank)
  shapeCasts_S36x6_S216 : S36x6.ShapeCasts S216
  bcast_S216_S216x1_0 : S216.BroadcastsInDim S216x1 (![0] : Fin 1 → Fin S216x1.rank)
  slices_S10x6_S1x6_3_0 : S10x6.Slices ![3, 0] S1x6
  bcast_S216x1_S216x6_0_1 : S216x1.BroadcastsInDim S216x6 (![0, 1] : Fin 2 → Fin S216x6.rank)
  bcast_S1x6_S216x6_0_1 : S1x6.BroadcastsInDim S216x6 (![0, 1] : Fin 2 → Fin S216x6.rank)
  shapeCasts_S216x6_S1296 : S216x6.ShapeCasts S1296
  bcast_S1296_S1296x1_0 : S1296.BroadcastsInDim S1296x1 (![0] : Fin 1 → Fin S1296x1.rank)
  slices_S10x6_S1x6_4_0 : S10x6.Slices ![4, 0] S1x6
  bcast_S1296x1_S1296x6_0_1 : S1296x1.BroadcastsInDim S1296x6 (![0, 1] : Fin 2 → Fin S1296x6.rank)
  bcast_S1x6_S1296x6_0_1 : S1x6.BroadcastsInDim S1296x6 (![0, 1] : Fin 2 → Fin S1296x6.rank)
  shapeCasts_S1296x6_S7776 : S1296x6.ShapeCasts S7776
  bcast_S7776_S7776x1_0 : S7776.BroadcastsInDim S7776x1 (![0] : Fin 1 → Fin S7776x1.rank)
  slices_S10x6_S1x6_5_0 : S10x6.Slices ![5, 0] S1x6
  bcast_S7776x1_S7776x6_0_1 : S7776x1.BroadcastsInDim S7776x6 (![0, 1] : Fin 2 → Fin S7776x6.rank)
  bcast_S1x6_S7776x6_0_1 : S1x6.BroadcastsInDim S7776x6 (![0, 1] : Fin 2 → Fin S7776x6.rank)
  shapeCasts_S7776x6_S46656 : S7776x6.ShapeCasts S46656
  bcast_S46656_S46656x1_0 : S46656.BroadcastsInDim S46656x1 (![0] : Fin 1 → Fin S46656x1.rank)
  slices_S10x6_S1x6_6_0 : S10x6.Slices ![6, 0] S1x6
  bcast_S46656x1_S46656x6_0_1 : S46656x1.BroadcastsInDim S46656x6 (![0, 1] : Fin 2 → Fin S46656x6.rank)
  bcast_S1x6_S46656x6_0_1 : S1x6.BroadcastsInDim S46656x6 (![0, 1] : Fin 2 → Fin S46656x6.rank)
  shapeCasts_S46656x6_S279936 : S46656x6.ShapeCasts S279936
  bcast_S279936_S279936x1_0 : S279936.BroadcastsInDim S279936x1 (![0] : Fin 1 → Fin S279936x1.rank)
  slices_S10x6_S1x6_7_0 : S10x6.Slices ![7, 0] S1x6
  bcast_S279936x1_S279936x6_0_1 : S279936x1.BroadcastsInDim S279936x6 (![0, 1] : Fin 2 → Fin S279936x6.rank)
  bcast_S1x6_S279936x6_0_1 : S1x6.BroadcastsInDim S279936x6 (![0, 1] : Fin 2 → Fin S279936x6.rank)
  shapeCasts_S279936x6_S1679616 : S279936x6.ShapeCasts S1679616
  bcast_S1679616_S1679616x1_0 : S1679616.BroadcastsInDim S1679616x1 (![0] : Fin 1 → Fin S1679616x1.rank)
  slices_S10x6_S1x6_8_0 : S10x6.Slices ![8, 0] S1x6
  bcast_S1679616x1_S1679616x6_0_1 : S1679616x1.BroadcastsInDim S1679616x6 (![0, 1] : Fin 2 → Fin S1679616x6.rank)
  bcast_S1x6_S1679616x6_0_1 : S1x6.BroadcastsInDim S1679616x6 (![0, 1] : Fin 2 → Fin S1679616x6.rank)
  shapeCasts_S1679616x6_S10077696 : S1679616x6.ShapeCasts S10077696
  bcast_S10077696_S10077696x1_0 : S10077696.BroadcastsInDim S10077696x1 (![0] : Fin 1 → Fin S10077696x1.rank)
  slices_S10x6_S1x6_9_0 : S10x6.Slices ![9, 0] S1x6
  bcast_S10077696x1_S10077696x6_0_1 : S10077696x1.BroadcastsInDim S10077696x6 (![0, 1] : Fin 2 → Fin S10077696x6.rank)
  bcast_S1x6_S10077696x6_0_1 : S1x6.BroadcastsInDim S10077696x6 (![0, 1] : Fin 2 → Fin S10077696x6.rank)
  shapeCasts_S10077696x6_S60466176 : S10077696x6.ShapeCasts S60466176
  reducesTo_S60466176_S_d0 : S60466176.ReducesTo [0] S_
  h_S_ : 0 < S_.numel

variable [Facts₀]

class Facts : Prop extends Facts₀ where

variable [Facts]
-- ==== Proof.KFrame.lean ====
/-
  The word-level kernel runs to the end, faults nowhere and leaves its four argument arrays as it found them.

  Nothing is said here of what the kernel computes.  At the word level the lane sum of a tile is one opaque
  function of the whole tile, and the second row block of the consequent table overhangs its array by eight rows
  whose staging words nothing names; so the accumulator's contents cannot be named there.  The proof data is
  therefore relational and asks nothing of any staging buffer: whatever each window's buffer and the scratch
  accumulator hold, the body's three loads, its lane sum, its stores into the scratch and (at the last column
  tile) into the result's buffer all lie inside whole buffers, so it runs; the argument arrays are staged by no
  window and written by no host line after the region.
-/
import proofs.«178313_j27496380629713_2_alg».proof.Proof.Gen.Kernel.Frame
import proofs.«178313_j27496380629713_2_alg».proof.Proof.Gen.Kernel.Skeleton
import Idealize.ShloMosaic.Lib.Pipeline.FrameBody
import Idealize.ShloMosaic.Lib.Pipeline.FrameSuffix
import Idealize.ShloMosaic.Lib.Tactic

set_option maxRecDepth 16384

noncomputable section

namespace Cert.Kernel.FrameRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch's condition: the column-tile coordinate is zero. -/
abbrev isFirst (i : grid0.Coords) : Prop :=
  (Scalar.cmpi .ne (Scalar.extui (Scalar.cmpi .eq (BitVec.ofNat 32 (i 1).val) 0#32)) 0#32) = 1#1

/-- The scratch accumulator as a memref. -/
abbrev accM : Memref sig .tc .vmem S112x1 .f32 := Memref.whole cc0_scratch0

/-- The region's invariant: the scratch accumulator at some contents, the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

set_option maxHeartbeats 8000000 in
/-- The body at any grid point on any whole buffers at any contents: it runs, and hands each buffer back at some
    contents. -/
theorem body_any (c : Dev nD) (i : grid0.Coords)
    (arg2 : Memref sig .tc .vmem S112x10368 .f32) (harg2 : arg2.IsWhole)
    (arg3 : Memref sig .tc .vmem S1x10368 .f32) (harg3 : arg3.IsWhole)
    (arg4 : Memref sig .tc .vmem S112x1 .f32) (harg4 : arg4.IsWhole)
    (arg5 : Memref sig .tc .vmem S112x1 .f32) (harg5 : arg5.IsWhole)
    (E : Set ℕ) (K : PUnit → sProp 𝕄) :
    iprop((∃ x, owns (c : Thread nD τ) arg2 fullShare x) ∗ (∃ x, owns (c : Thread nD τ) arg3 fullShare x)
        ∗ (∃ x, owns (c : Thread nD τ) arg4 fullShare x) ∗ (∃ x, owns (c : Thread nD τ) arg5 fullShare x)
        ∗ (iprop((∃ x, owns (c : Thread nD τ) arg2 fullShare x) ∗ (∃ x, owns (c : Thread nD τ) arg3 fullShare x)
            ∗ (∃ x, owns (c : Thread nD τ) arg4 fullShare x) ∗ (∃ x, owns (c : Thread nD τ) arg5 fullShare x)) -∗ K ⟨⟩))
      ⊢ wp frame (wpE (defs₀ (F := F)) Variants.none c none) E
          (cc0__matvec_kernel i arg2 harg2 arg3 harg3 arg4 harg4 arg5 harg5) K := by
  by_cases h1 : isFirst i <;> by_cases h2 : k0_cond2 i = 1#1
  all_goals
    simp only [cc0__matvec_kernel_eq_skeleton]; unfold cc0__matvec_kernel_skel
    unfold owns
    iintro ⟨⟨%x2, %f2, %hf2, H2⟩, ⟨%x3, %f3, %hf3, H3⟩, ⟨%x4, %f4, %hf4, H4⟩, ⟨%x5, %f5, %hf5, H5⟩, Hk⟩
    sl_exec (disch := first | exact h1 | exact h2)
    sl_step
    iapply Hk
    isplitl [H2]
    · iexists _, _; isplitr
      swap; · iexact H2
      ipureintro; rfl
    isplitl [H3]
    · iexists _, _; isplitr
      swap; · iexact H3
      ipureintro; rfl
    isplitl [H4]
    · iexists _, _; isplitr
      swap; · iexact H4
      ipureintro; rfl
    · iexists _, _; isplitr
      swap; · iexact H5
      ipureintro; rfl

/-! ## The proof data, the obligation, the run -/

/-- The relational proof data: the windowed arrays as the region finds them; nothing asked of what the body
    leaves in any staging buffer; the scratch accumulator at anything between points; nothing owed. -/
def rdat (c : Dev nD) : RDat τ (Elt F) Unit ℕ (UR sig nD τ) ℕ (cfgs 0) c where
  A w := V m c (Pipeline.arrRef spec0 w)
  after _ _ _ _ := True
  Φ _ := Pipeline.ΦA spec0 c
  q _ := fullShare
  owed _ := 0

set_option maxHeartbeats 4000000 in
/-- At every grid point, whatever the three current staging buffers and the accumulator hold, the body runs and
    hands them back. -/
theorem body_obligation (c : Dev nD) :
    (rdat m c).BodyObligation (defs₀ (F := F)) Variants.none () Set.univ := fun t Y _ => by
  rw [bigSep_W0, bigSep_W0]
  rw [show (rdat m c).Φ t.castSucc = Pipeline.ΦA spec0 c from rfl,
    show (rdat m c).Φ t.succ = Pipeline.ΦA spec0 c from rfl,
    show (rdat m c).owesAt () t.succ = (rdat m c).owesAt () t.castSucc from rfl, PhiA_eq]
  iintro ⟨⟨HS, Hg⟩, Ho, H0, H1, H2⟩
  iapply (body_any (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) accM (Memref.isWhole_whole _) Set.univ _)
  isplitl [H0]; · iexists _; iexact H0
  isplitl [H1]; · iexists _; iexact H1
  isplitl [H2]; · iexists _; iexact H2
  isplitl [HS]; · iexact HS
  iintro ⟨⟨%X0, H0⟩, ⟨%X1, H1⟩, ⟨%X2, H2⟩, HS⟩
  isplitl [HS Hg]
  · isplitl [HS]; · iexact HS
    iexact Hg
  isplitl [Ho]; · iexact Ho
  isplitl [H0]
  · iexists X0; isplitr; · ipureintro; trivial
    iexact H0
  isplitl [H1]
  · iexists X1; isplitr; · ipureintro; trivial
    iexact H1
  · iexists X2; isplitr; · ipureintro; trivial
    iexact H2

/-- The buffers the ten host lines after the region write: each its own result. -/
abbrev tailWrites : Finset (Ref sig .tc) :=
  {main_v81, main_v82, main_cst_0, main_v83, main_cst_1, main_v84, main_cst_2, main_v85, main_v86, main_v87}

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals
    simp only [StableHlo.nullary_writes, StableHlo.unary_writes, StableHlo.binary_writes, StableHlo.reshape_writes,
      Finset.mem_singleton] at hb
    obtain rfl := Proc.devRef_injective _ hb
    decide

set_option backward.isDefEq.respectTransparency.types false in
/-- Every weakly fair execution of @main terminates without a fault, and every unscoped buffer that is neither a
    windowed array nor written by the host lines after the region ends as the region found it. -/
theorem run_main : θ_run defs (onTc (τ := τ) (main (F := F))) (s₀ m ρ)
    (Pipeline.RDat.FramePostR (cfgs 0) (rdat m) tailWrites (V m)) :=
  Pipeline.RDat.θ_run_frame_around_T cfgs (0 : Fin 1) launch0 defs₀ Variants.none (rdat m) tailWrites m ρ main
    (hbody := body_obligation m) (hshare := fun c w => by unfold RDat.share; split <;> rfl)
    (howed := fun _ _ => rfl) (V₀ := V0 m) (opss := [hostOps1]) (hsub := sfx_sub) (hfresh := sfx_fresh)
    (hkeep := sfx_keeps) (hT := tail_writes) (hmain := hmain m Variants.none) (hA := fun _ _ => rfl)
    (hΦ := fun _ _ => rfl)

/-- The frame: the four argument arrays are no window's array and no host line after the region writes them, so
    they end as the region found them, which is as launched (no host line before the region writes them either). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c)⟩)
    (run_main m ρ)

end Cert.Kernel.FrameRun

end
-- ==== Proof.PayRead.lean ====
/-
  The kernel body's arithmetic read at an index: at row `r` the stored value is the accumulator's entry plus the
  sum over the 10368 lanes of the tile's entry times the column factor's entry; the initial store is zero.
-/
import proofs.«178313_j27496380629713_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.PayRead

open scoped BigOperators
open Idealize.ShloMosaic Idealize.ShloMosaic.ValueIdx Cert.KernelIdeal

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index a reduction over axis 1 inserts lane `k` into at row `r` is `(r, k)`. -/
theorem lift_eq (h : S112x10368.Reduces [1] S112) (r : Fin 112) (k : Fin 10368) :
    h.lift (ix1 r) k = ix2 r k := by
  rw [eq_ix2 (h.lift (ix1 r) k)]
  congr 1 <;> exact Fin.ext rfl

/-- The accumulating store at row `r`: the accumulator's entry plus the lane sum of tile times column factor. -/
theorem pay2_apply (x0 : Vec Ideal S112x10368 .f32) (x1 : Vec Ideal S1x10368 .f32) (s : Vec Ideal S112x1 .f32) (r : Fin 112) :
    Gen.k0_pay2 (F := Ideal) x0 x1 s (ix2 r (0 : Fin 1))
      = s (ix2 r (0 : Fin 1)) + ∑ k : Fin 10368, x0 (ix2 r k) * x1 (ix2 (0 : Fin 1) k) := by
  delta Gen.k0_pay2
  dsimp only
  simp only [shapeCast_self]
  refine (addf_apply _ _ _).trans ?_
  congr 1
  refine (shapeCast_a_a1_apply _ _ r 0).trans ?_
  refine (Ideal.multiReduction_add_single _ _ _ _ _ (ix1 r)).trans ?_
  show ∑ k : Fin 10368, _ = _
  refine Finset.sum_congr rfl fun k _ => ?_
  refine (congrArg _ (lift_eq _ r k)).trans ?_
  refine (mulf_apply _ _ _).trans ?_
  congr 1
  exact broadcastTo_1b_ab_apply _ _ r k

/-- The initial store is zero everywhere. -/
theorem pay1_apply (j : S112x1.Idx) : Gen.k0_pay1 (F := Ideal) j = 0 := by
  delta Gen.k0_pay1
  simp only [shapeCast_self]
  exact Ideal.ofBits_zero_f32

end Cert.PayRead

end
-- ==== Proof.IBody.lean ====
/-
  The idealized kernel's region, point by point, with what it computes NAMED.

  The grid has 54 points `t = 27·i + j`: row block `i` (112 rows of the 216 × 279936 reading of the consequent
  table; the second block overhangs the array by eight rows) and column tile `j` (10368 lanes).  At each point
  the body adds to a 112 × 1 scratch accumulator, row by row, the sum over the tile's lanes of the table's row
  times the column factor; it zeroes the accumulator first when `j = 0` and copies it to the result's staging
  buffer when `j = 26`.  Over the extended reals the lane sum is an ordinary sum taken row by row, so a row of
  the accumulator depends only on that row of the tile: the eight staging rows past the array's end, which
  hold words nothing names, never reach a row inside the array.

  The proof data names the tile's staging buffer after the body as the array's block filled out with zeros, the
  column factor's as its block, and the result's (at `j = 26`) as `accS`, the accumulator computed from those
  named contents by recursion on the point.  Between points the invariant holds the scratch at SOME contents that
  agree with `accS` on the rows inside the array; that is all the write-back of a clipped block moves.
-/
import proofs.«178313_j27496380629713_2_alg».proof.Proof.Gen.KernelIdeal.Frame
import proofs.«178313_j27496380629713_2_alg».proof.Proof.Gen.KernelIdeal.Skeleton
import proofs.«178313_j27496380629713_2_alg».proof.Proof.PayRead
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligationLoose)

/-- The first branch's condition: the column-tile coordinate is zero. -/
abbrev isFirst (i : grid0.Coords) : Prop :=
  (Scalar.cmpi .ne (Scalar.extui (Scalar.cmpi .eq (BitVec.ofNat 32 (i 1).val) 0#32)) 0#32) = 1#1

/-! ## The body on any whole buffers, case by case (at any float instance) -/

section Triples

variable {F : FTy → Type} [FloatOps F]

local notation "𝕄" => MT nD τ sig Unit (Elt F) ℕ (UR sig nD τ) ℕ

set_option maxHeartbeats 8000000 in
theorem bodyB (c : Dev nD) (i : grid0.Coords)
    (arg2 : Memref sig .tc .vmem S112x10368 .f32) (harg2 : arg2.IsWhole)
    (arg3 : Memref sig .tc .vmem S1x10368 .f32) (harg3 : arg3.IsWhole)
    (arg4 : Memref sig .tc .vmem S112x1 .f32) (harg4 : arg4.IsWhole)
    (arg5 : Memref sig .tc .vmem S112x1 .f32) (harg5 : arg5.IsWhole)
    (h1 : ¬isFirst i) (h2 : ¬k0_cond2 i = 1#1)
    (x0 : Vec F S112x10368 .f32) (x1 : Vec F S1x10368 .f32) (x2 s : Vec F S112x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare s
        ∗ (iprop(owns (c : Thread nD τ) arg2 fullShare x0 ∗ owns (c : Thread nD τ) arg3 fullShare x1
            ∗ owns (c : Thread nD τ) arg4 fullShare (x2) ∗ owns (c : Thread nD τ) arg5 fullShare (k0_pay2 x0 x1 s)) -∗ K ⟨⟩))
      ⊢ wp frame (wpE (defs₀ (F := F)) Variants.none c none) E
          (cc0__matvec_kernel i arg2 harg2 arg3 harg3 arg4 harg4 arg5 harg5) K := by
  have hz : (![0, 0] : Fin 2 → Nat) = fun _ => 0 := funext fun a => by fin_cases a <;> rfl
  simp only [cc0__matvec_kernel_eq_skeleton]; unfold cc0__matvec_kernel_skel
  unfold owns
  iintro ⟨⟨%f2, %hf2, H2⟩, ⟨%f3, %hf3, H3⟩, ⟨%f4, %hf4, H4⟩, ⟨%f5, %hf5, H5⟩, Hk⟩
  sl_exec (disch := first | exact h1 | exact h2)
  sl_step
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro
    exact hf4
  · iexists _; isplitr
    swap; · iexact H5
    ipureintro
    sl_unfold_words
    rw [View.read_writes_eq_canon _ _ _ (fun y => ⟨_, List.mem_cons.mpr (Or.inl rfl), View.mem_set_unit_zero hz inb_S112x1_S112x1_0_0 y⟩), View.canon_cons_unit_zero hz]
    simp only [View.readCov_unit_zero (S := S112x1) _ hz, View.readAt_eq_ld, hf2, hf3, hf5, View.ld_unit_zero (S := S112x10368) hz, View.ld_unit_zero (S := S1x10368) hz, View.ld_unit_zero (S := S112x1) hz]

set_option maxHeartbeats 8000000 in
theorem bodyA (c : Dev nD) (i : grid0.Coords)
    (arg2 : Memref sig .tc .vmem S112x10368 .f32) (harg2 : arg2.IsWhole)
    (arg3 : Memref sig .tc .vmem S1x10368 .f32) (harg3 : arg3.IsWhole)
    (arg4 : Memref sig .tc .vmem S112x1 .f32) (harg4 : arg4.IsWhole)
    (arg5 : Memref sig .tc .vmem S112x1 .f32) (harg5 : arg5.IsWhole)
    (h1 : isFirst i) (h2 : ¬k0_cond2 i = 1#1)
    (x0 : Vec F S112x10368 .f32) (x1 : Vec F S1x10368 .f32) (x2 s : Vec F S112x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare s
        ∗ (iprop(owns (c : Thread nD τ) arg2 fullShare x0 ∗ owns (c : Thread nD τ) arg3 fullShare x1
            ∗ owns (c : Thread nD τ) arg4 fullShare (x2) ∗ owns (c : Thread nD τ) arg5 fullShare (k0_pay2 x0 x1 k0_pay1)) -∗ K ⟨⟩))
      ⊢ wp frame (wpE (defs₀ (F := F)) Variants.none c none) E
          (cc0__matvec_kernel i arg2 harg2 arg3 harg3 arg4 harg4 arg5 harg5) K := by
  have hz : (![0, 0] : Fin 2 → Nat) = fun _ => 0 := funext fun a => by fin_cases a <;> rfl
  simp only [cc0__matvec_kernel_eq_skeleton]; unfold cc0__matvec_kernel_skel
  unfold owns
  iintro ⟨⟨%f2, %hf2, H2⟩, ⟨%f3, %hf3, H3⟩, ⟨%f4, %hf4, H4⟩, ⟨%f5, %hf5, H5⟩, Hk⟩
  sl_exec (disch := first | exact h1 | exact h2)
  sl_step
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro
    exact hf4
  · iexists _; isplitr
    swap; · iexact H5
    ipureintro
    sl_unfold_words
    rw [View.read_writes_eq_canon _ _ _ (fun y => ⟨_, List.mem_cons.mpr (Or.inl rfl), View.mem_set_unit_zero hz inb_S112x1_S112x1_0_0 y⟩), View.canon_cons_unit_zero hz]
    simp only [View.readCov_unit_zero (S := S112x1) _ hz, View.readAt_eq_ld, hf2, hf3,  View.ld_unit_zero (S := S112x10368) hz, View.ld_unit_zero (S := S1x10368) hz, View.ld_unit_zero (S := S112x1) hz]

set_option maxHeartbeats 8000000 in
theorem bodyC (c : Dev nD) (i : grid0.Coords)
    (arg2 : Memref sig .tc .vmem S112x10368 .f32) (harg2 : arg2.IsWhole)
    (arg3 : Memref sig .tc .vmem S1x10368 .f32) (harg3 : arg3.IsWhole)
    (arg4 : Memref sig .tc .vmem S112x1 .f32) (harg4 : arg4.IsWhole)
    (arg5 : Memref sig .tc .vmem S112x1 .f32) (harg5 : arg5.IsWhole)
    (h1 : ¬isFirst i) (h2 : k0_cond2 i = 1#1)
    (x0 : Vec F S112x10368 .f32) (x1 : Vec F S1x10368 .f32) (x2 s : Vec F S112x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare s
        ∗ (iprop(owns (c : Thread nD τ) arg2 fullShare x0 ∗ owns (c : Thread nD τ) arg3 fullShare x1
            ∗ owns (c : Thread nD τ) arg4 fullShare (k0_pay2 x0 x1 s) ∗ owns (c : Thread nD τ) arg5 fullShare (k0_pay2 x0 x1 s)) -∗ K ⟨⟩))
      ⊢ wp frame (wpE (defs₀ (F := F)) Variants.none c none) E
          (cc0__matvec_kernel i arg2 harg2 arg3 harg3 arg4 harg4 arg5 harg5) K := by
  have hz : (![0, 0] : Fin 2 → Nat) = fun _ => 0 := funext fun a => by fin_cases a <;> rfl
  simp only [cc0__matvec_kernel_eq_skeleton]; unfold cc0__matvec_kernel_skel
  unfold owns
  iintro ⟨⟨%f2, %hf2, H2⟩, ⟨%f3, %hf3, H3⟩, ⟨%f4, %hf4, H4⟩, ⟨%f5, %hf5, H5⟩, Hk⟩
  sl_exec (disch := first | exact h1 | exact h2)
  sl_step
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro
    sl_unfold_words
    rw [View.read_writes_eq_canon _ _ _ (fun y => ⟨_, List.mem_cons.mpr (Or.inl rfl), View.mem_set_unit_zero hz inb_S112x1_S112x1_0_0 y⟩), View.canon_cons_unit_zero hz]
    simp only [View.readCov_unit_zero (S := S112x1) _ hz, View.readAt_eq_ld, hf2, hf3, hf5, View.ld_unit_zero (S := S112x10368) hz, View.ld_unit_zero (S := S1x10368) hz, View.ld_unit_zero (S := S112x1) hz]
  · iexists _; isplitr
    swap; · iexact H5
    ipureintro
    sl_unfold_words
    rw [View.read_writes_eq_canon _ _ _ (fun y => ⟨_, List.mem_cons.mpr (Or.inl rfl), View.mem_set_unit_zero hz inb_S112x1_S112x1_0_0 y⟩), View.canon_cons_unit_zero hz]
    simp only [View.readCov_unit_zero (S := S112x1) _ hz, View.readAt_eq_ld, hf2, hf3, hf5, View.ld_unit_zero (S := S112x10368) hz, View.ld_unit_zero (S := S1x10368) hz, View.ld_unit_zero (S := S112x1) hz]

end Triples

/-! ## Facts decided over the 54 grid points -/

/-- The column-tile coordinate is zero at the points ≡ 0 (mod 27). -/
theorem hfirst : ∀ t : Fin cfg0.N, isFirst (grid0.coords t) ↔ t.val % 27 = 0 :=
  (by decide +kernel : ∀ t : Fin grid0.N, isFirst (grid0.coords t) ↔ t.val % 27 = 0)
/-- It is the last one at the points ≡ 26 (mod 27). -/
theorem hlast : ∀ t : Fin cfg0.N, k0_cond2 (grid0.coords t) = 1#1 ↔ t.val % 27 = 26 :=
  (by decide +kernel : ∀ t : Fin grid0.N, k0_cond2 (grid0.coords t) = 1#1 ↔ t.val % 27 = 26)
/-- The rows of a tile inside the array: all 112 in the first row block, 104 in the second; all 10368 lanes. -/
theorem xs0_0 : ∀ t : Fin cfg0.N, win0_0.xsize (grid0.coords t) 0 = if t.val < 27 then 112 else 104 :=
  (by decide +kernel : ∀ t : Fin grid0.N, win0_0.xsize (grid0.coords t) 0 = if t.val < 27 then 112 else 104)
theorem xs0_1 : ∀ t : Fin cfg0.N, win0_0.xsize (grid0.coords t) 1 = 10368 :=
  (by decide +kernel : ∀ t : Fin grid0.N, win0_0.xsize (grid0.coords t) 1 = 10368)
/-- The result's block is cut at the same rows. -/
theorem xs2_0 : ∀ t : Fin cfg0.N, win0_2.xsize (grid0.coords t) 0 = if t.val < 27 then 112 else 104 :=
  (by decide +kernel : ∀ t : Fin grid0.N, win0_2.xsize (grid0.coords t) 0 = if t.val < 27 then 112 else 104)
theorem xs2_1 : ∀ t : Fin cfg0.N, win0_2.xsize (grid0.coords t) 1 = 1 :=
  (by decide +kernel : ∀ t : Fin grid0.N, win0_2.xsize (grid0.coords t) 1 = 1)
/-- The two input windows are never idle; the result's is idle, and not written back, except at the last column tile. -/
theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬k0_cond2 (grid0.coords t) = 1#1 → cfg0.idle 2 (grid0.coords t) = true := by decide +kernel
theorem noflush2 : ∀ t : Fin cfg0.N, ¬k0_cond2 (grid0.coords t) = 1#1 → (cfg0.win 2).flush t = false := by decide +kernel
theorem live2 : ∀ t : Fin cfg0.N, k0_cond2 (grid0.coords t) = 1#1 → cfg0.idle 2 (grid0.coords t) = false := by decide +kernel

/-- The number of rows of point `n`'s row block that lie inside the array. -/
def rowsIn (n : ℕ) : ℕ := if n < 27 then 112 else 104

theorem rowsIn_pred {n : ℕ} (h : ¬n % 27 = 0) (hn : n < 54) : rowsIn (n - 1) = rowsIn n := by
  unfold rowsIn; split <;> split <;> first | rfl | omega

/-- The grid point of a natural number. -/
def pt (n : ℕ) : Fin cfg0.N := ⟨n % 54, lt_of_lt_of_eq (Nat.mod_lt _ (by decide)) N_0.symm⟩

theorem pt_val (t : Fin cfg0.N) : pt t.val = t :=
  Fin.ext (Nat.mod_eq_of_lt (lt_of_lt_of_eq t.isLt N_0))

/-! ## The proof data -/

section Data

local notation "𝕄" => MT nD τ sig Unit (Elt Ideal) ℕ (UR sig nD τ) ℕ

variable (m : (ℓ : Loc nD τ sig) → Buf (Elt Ideal) ℓ) (ρ : Dev nD → PrngReg)

/-- The scratch accumulator as a memref. -/
abbrev accM : Memref sig .tc .vmem S112x1 .f32 := Memref.whole cc0_scratch0

/-- The region's own invariant: the scratch accumulator at some contents, the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-- The tile of point `t` as named after the body: the array's block, filled out with zeros past the array's end. -/
def Y0 (c : Dev nD) (t : Fin cfg0.N) : Vec Ideal S112x10368 .f32 :=
  win0_0.fill (grid0.coords t) (fun _ => Scalar.ofBits (F := Ideal) .f32 0#32) (iblk m c 0 t)

/-- The column factor's tile at point `t`. -/
def X1 (c : Dev nD) (t : Fin cfg0.N) : Vec Ideal S1x10368 .f32 := iblk m c 1 t

/-- THE ACCUMULATOR after the body at point `n`, from the named tiles: started from zero at the first column
    tile of a row block, else continued from the point before. -/
def accS (c : Dev nD) : ℕ → Vec Ideal S112x1 .f32
  | 0 => k0_pay2 (F := Ideal) (Y0 m c (pt 0)) (X1 m c (pt 0)) (k0_pay1 (F := Ideal))
  | n + 1 => k0_pay2 (F := Ideal) (Y0 m c (pt (n + 1))) (X1 m c (pt (n + 1)))
      (if (n + 1) % 27 = 0 then k0_pay1 (F := Ideal) else accS c n)

theorem accS_first (c : Dev nD) (n : ℕ) (h : n % 27 = 0) :
    accS m c n = k0_pay2 (F := Ideal) (Y0 m c (pt n)) (X1 m c (pt n)) (k0_pay1 (F := Ideal)) := by
  cases n with
  | zero => rfl
  | succ n => show k0_pay2 _ _ (if _ then _ else _) = _; rw [if_pos h]

theorem accS_next (c : Dev nD) (n : ℕ) (h : ¬n % 27 = 0) :
    accS m c n = k0_pay2 (F := Ideal) (Y0 m c (pt n)) (X1 m c (pt n)) (accS m c (n - 1)) := by
  cases n with
  | zero => exact absurd (Nat.zero_mod _) h
  | succ n => show k0_pay2 _ _ (if _ then _ else _) = _; rw [if_neg h]; rfl

/-- Contents of the scratch that agree with the accumulator after point `n` on the rows inside the array. -/
def Agree (c : Dev nD) (n : ℕ) (S : Vec Ideal S112x1 .f32) : Prop :=
  ∀ r : Fin 112, r.val < rowsIn n → S (ix2 r (0 : Fin 1)) = accS m c n (ix2 r (0 : Fin 1))

/-- A filled block on a row inside the array is the block there, whatever fills the rest. -/
theorem fill_row (t : Fin cfg0.N) (d d' : S112x10368.Idx → EReal) (g : (win0_0.xblock (grid0.coords t)).Idx → EReal)
    (r : Fin 112) (hr : r.val < rowsIn t.val) (k : Fin 10368) :
    win0_0.fill (grid0.coords t) d g (ix2 r k) = win0_0.fill (grid0.coords t) d' g (ix2 r k) := by
  have hm : win0_0.moved (grid0.coords t) (ix2 r k) = true := (win0_0.moved_iff _ _).mpr (fun a => by
    match a with
    | ⟨0, _⟩ => show r.val < win0_0.xsize (grid0.coords t) 0; rw [xs0_0]; exact hr
    | ⟨1, _⟩ => show k.val < win0_0.xsize (grid0.coords t) 1; rw [xs0_1]; exact k.isLt)
  unfold Window.fill; rw [dif_pos hm, dif_pos hm]

/-- Over the extended reals a row of the body's result depends on that row of the tile and of the accumulator only. -/
theorem pay2_rows (x0 x0' : Vec Ideal S112x10368 .f32) (x1 : Vec Ideal S1x10368 .f32) (s s' : Vec Ideal S112x1 .f32) (R : ℕ)
    (h0 : ∀ r : Fin 112, r.val < R → ∀ k : Fin 10368, x0 (ix2 r k) = x0' (ix2 r k))
    (hs : ∀ r : Fin 112, r.val < R → s (ix2 r (0 : Fin 1)) = s' (ix2 r (0 : Fin 1)))
    (r : Fin 112) (hr : r.val < R) :
    k0_pay2 (F := Ideal) x0 x1 s (ix2 r (0 : Fin 1)) = k0_pay2 (F := Ideal) x0' x1 s' (ix2 r (0 : Fin 1)) := by
  rw [Cert.PayRead.pay2_apply, Cert.PayRead.pay2_apply, hs r hr]
  exact congrArg _ (Finset.sum_congr rfl fun k _ => by rw [h0 r hr k])

/-- At the first column tile of a row block, whatever the staging rows past the array hold. -/
theorem agree_first (c : Dev nD) (t : Fin cfg0.N) (d : S112x10368.Idx → EReal) (h : t.val % 27 = 0) :
    Agree m c t.val (k0_pay2 (F := Ideal) (win0_0.fill (grid0.coords t) d (iblk m c 0 t)) (X1 m c t) (k0_pay1 (F := Ideal))) := by
  intro r hr
  rw [accS_first m c t.val h, pt_val]
  exact pay2_rows _ _ _ _ _ (rowsIn t.val) (fun r hr k => by unfold Y0; exact fill_row t _ _ _ r hr k) (fun _ _ => rfl) r hr

/-- At a later column tile, from contents that agreed after the point before. -/
theorem agree_next (c : Dev nD) (t : Fin cfg0.N) (d : S112x10368.Idx → EReal) (S : Vec Ideal S112x1 .f32)
    (h : ¬t.val % 27 = 0) (hS : Agree m c (t.val - 1) S) :
    Agree m c t.val (k0_pay2 (F := Ideal) (win0_0.fill (grid0.coords t) d (iblk m c 0 t)) (X1 m c t) S) := by
  intro r hr
  have hN : t.val < 54 := lt_of_lt_of_eq t.isLt N_0
  rw [accS_next m c t.val h, pt_val]
  exact pay2_rows _ _ _ _ _ (rowsIn t.val) (fun r hr k => by unfold Y0; exact fill_row t _ _ _ r hr k)
    (fun r hr => hS r (by rw [rowsIn_pred h hN]; exact hr)) r hr

/-- Contents of the result's block that agree on the rows inside the array have the same moved part. -/
theorem cut2_eq (t : Fin cfg0.N) (S S' : Vec Ideal S112x1 .f32)
    (h : ∀ r : Fin 112, r.val < rowsIn t.val → S (ix2 r (0 : Fin 1)) = S' (ix2 r (0 : Fin 1))) :
    win0_2.cut (grid0.coords t) S = win0_2.cut (grid0.coords t) S' := by
  funext j
  show S (win0_2.xinj (grid0.coords t) j) = S' (win0_2.xinj (grid0.coords t) j)
  have h0 : (j 0).val < win0_2.xsize (grid0.coords t) 0 := (j 0).isLt
  have h1 : (j 1).val < win0_2.xsize (grid0.coords t) 1 := (j 1).isLt
  rw [xs2_0] at h0; rw [xs2_1] at h1
  have h0' : (j 0).val < 112 := by split at h0 <;> omega
  have e : win0_2.xinj (grid0.coords t) j = ix2 (⟨(j 0).val, h0'⟩ : Fin 112) (0 : Fin 1) :=
    funext fun a => Fin.ext (by
      match a with
      | ⟨0, _⟩ => rfl
      | ⟨1, _⟩ => show (j 1).val = 0; omega)
  rw [e]; exact h _ h0

/-- The invariant before position `n`: before the first point the region's own (the scratch at anything); afterwards
    the scratch at contents agreeing with the accumulator after the point before on the rows inside the array. -/
def PhiS (c : Dev nD) : ℕ → sProp 𝕄
  | 0 => Pipeline.ΦA spec0 c
  | n + 1 => iprop(iprop(∃ S, ⌜Agree m c n S⌝ ∗ owns (c : Thread nD τ) accM fullShare S) ∗ (∃ r, prngReg c r))

theorem PhiS_succ (c : Dev nD) (n : ℕ) :
    PhiS m c (n + 1) = iprop(iprop(∃ S, ⌜Agree m c n S⌝ ∗ owns (c : Thread nD τ) accM fullShare S) ∗ (∃ r, prngReg c r)) := rfl

theorem PhiS_pos (c : Dev nD) (n : ℕ) (hz : n ≠ 0) :
    PhiS m c n = iprop(iprop(∃ S, ⌜Agree m c (n - 1) S⌝ ∗ owns (c : Thread nD τ) accM fullShare S) ∗ (∃ r, prngReg c r)) := by
  cases n with
  | zero => exact absurd rfl hz
  | succ n => rfl

/-- At any position the invariant holds the scratch at SOME contents. -/
theorem PhiS_any (c : Dev nD) (n : ℕ) :
    PhiS m c n ⊢ iprop(iprop((∃ d, owns (c : Thread nD τ) accM fullShare d)) ∗ (∃ r, prngReg c r)) := by
  cases n with
  | zero => rw [show PhiS m c 0 = Pipeline.ΦA spec0 c from rfl, PhiA_eq]
  | succ n =>
    rw [PhiS_succ]
    iintro ⟨⟨%S, -, HS⟩, Hg⟩
    isplitl [HS]
    · iexists S; iexact HS
    iexact Hg

/-- The proof data: the arrays as the region finds them; after the body the tile's buffer at the block filled out
    with zeros, the column factor's at its block, the result's at the accumulator; the invariant above; nothing
    owed; full shares. -/
def dats (_ : Fin 1) (c : Dev nD) : Dat τ (Elt Ideal) Unit ℕ (UR sig nD τ) ℕ cfg0 c where
  A w := V m c (Pipeline.arrRef spec0 w)
  after w t := match w with
    | ⟨0, _⟩ => Y0 m c t
    | ⟨1, _⟩ => X1 m c t
    | ⟨2, _⟩ => accS m c t.val
  Φ t := PhiS m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = Y0 m c t := by dsimp only [dats]
theorem after1 (c : Dev nD) (t : Fin cfg0.N) : (dats m 0 c).after 1 t = iblk m c 1 t := by dsimp only [dats]; rfl
theorem after2 (c : Dev nD) (t : Fin cfg0.N) : (dats m 0 c).after 2 t = accS m c t.val := by dsimp only [dats]
theorem Phi_castSucc (c : Dev nD) (t : Fin cfg0.N) : (dats m 0 c).Φ t.castSucc = PhiS m c t.val := by
  dsimp only [dats]; simp only [Fin.coe_castSucc]

/-- The tile's buffer is fetched at every point: the block on the part inside the array, anything elsewhere. -/
theorem before0 (c : Dev nD) (t : Fin cfg0.N) (d) :
    (dats m 0 c).before 0 t d = win0_0.fill (grid0.coords t) d (iblk m c 0 t) := by
  unfold Dat.before; rw [if_pos (fetch0_0 t)]; rfl
/-- The column factor's buffer holds its block at every point. -/
theorem before1 (c : Dev nD) (t : Fin cfg0.N) (d) : (dats m 0 c).before 1 t d = iblk m c 1 t :=
  before0_1_of m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))

/-- and what it returns: each window's buffer as the loop asks, the clipped ones on their moved part only. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

theorem leaves0 (c : Dev nD) (t : Fin cfg0.N) : (dats m 0 c).leaves 0 t
    = iprop(∃ d, owns (c : Thread nD τ) (win0_0.stage (cfg0.slots t 0)) fullShare
        (win0_0.fill (grid0.coords t) d (win0_0.cut (grid0.coords t) ((dats m 0 c).after 0 t)))) := by
  unfold Dat.leaves; rw [live0 t]

theorem leaves1 (c : Dev nD) (t : Fin cfg0.N) : (dats m 0 c).leaves 1 t
    = owns (c : Thread nD τ) (win0_1.stage (cfg0.slots t 1)) fullShare ((dats m 0 c).after 1 t) := by
  unfold Dat.leaves; rw [live1 t]

theorem leaves2_live (c : Dev nD) (t : Fin cfg0.N) (h : k0_cond2 (grid0.coords t) = 1#1) : (dats m 0 c).leaves 2 t
    = iprop(∃ d, owns (c : Thread nD τ) (win0_2.stage (cfg0.slots t 2)) fullShare
        (win0_2.fill (grid0.coords t) d (win0_2.cut (grid0.coords t) ((dats m 0 c).after 2 t)))) := by
  unfold Dat.leaves; rw [live2 t h]

set_option maxHeartbeats 4800000 in
/-- The body at any point.  Its tile arrives as the block filled out with anything, its accumulator at contents
    that agree with the named one on the rows inside the array (or at anything, at a row block's first tile, where
    the body zeroes it); the accumulator it leaves agrees again, row by row; at the last tile the result's buffer
    takes the accumulator, which on the moved rows is the named one. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) from rfl, PhiS_succ, Phi_castSucc, leaves0, leaves1, after0, after1]
  have hN : t.val < 54 := lt_of_lt_of_eq t.isLt N_0
  have hcut0 : win0_0.cut (grid0.coords t) (Y0 m c t) = iblk m c 0 t := win0_0.cut_fill _ _ _
  rw [hcut0]
  by_cases h0 : t.val % 27 = 0
  · -- a row block's first column tile: the accumulator is zeroed first
    have hc1 : isFirst (grid0.coords t) := (hfirst t).mpr h0
    have hc2 : ¬k0_cond2 (grid0.coords t) = 1#1 := fun h => by have := (hlast t).mp h; omega
    rw [Dat.leaves_idle (dats m 0 c) 2 t (idle2 t hc2) (noflush2 t hc2)]
    refine (sep_mono (PhiS_any m c t.val) .rfl).trans ?_
    iintro ⟨⟨⟨%ds, HS⟩, Hg⟩, Ho, ⟨%d0, H0⟩, ⟨%d1, H1⟩, ⟨%d2, H2⟩⟩
    iapply (bodyA (F := Ideal) c (grid0.coords t) _ _ _ _ _ _ accM (Memref.isWhole_whole _) hc1 hc2
      (win0_0.fill (grid0.coords t) d0 (iblk m c 0 t)) (X1 m c t) ((dats m 0 c).before 2 t d2) ds Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; · ipureintro; exact agree_first m c t d0 h0
        iexact HS
      iexact Hg
    isplitl [Ho]; · iexact Ho
    isplitl [H0]; · iexists d0; iexact H0
    isplitl [H1]; · iexact H1
    iexists d2; iexact H2
  · have hz : t.val ≠ 0 := fun h => h0 (by rw [h])
    have hc1 : ¬isFirst (grid0.coords t) := fun h => h0 ((hfirst t).mp h)
    rw [PhiS_pos m c t.val hz]
    by_cases h1 : t.val % 27 = 26
    · -- the last column tile: the accumulator also goes to the result's buffer
      have hc2 : k0_cond2 (grid0.coords t) = 1#1 := (hlast t).mpr h1
      rw [leaves2_live m c t hc2, after2]
      iintro ⟨⟨⟨%S, %hS, HS⟩, Hg⟩, Ho, ⟨%d0, H0⟩, ⟨%d1, H1⟩, ⟨%d2, H2⟩⟩
      iapply (bodyC (F := Ideal) c (grid0.coords t) _ _ _ _ _ _ accM (Memref.isWhole_whole _) hc1 hc2
        (win0_0.fill (grid0.coords t) d0 (iblk m c 0 t)) (X1 m c t) ((dats m 0 c).before 2 t d2) S Set.univ _)
      isplitl [H0]; · iexact H0
      isplitl [H1]; · iexact H1
      isplitl [H2]; · iexact H2
      isplitl [HS]; · iexact HS
      iintro ⟨H0, H1, H2, HS⟩
      have hA := agree_next m c t d0 S h0 hS
      isplitl [HS Hg]
      · isplitl [HS]
        · iexists _; isplitr; · ipureintro; exact hA
          iexact HS
        iexact Hg
      isplitl [Ho]; · iexact Ho
      isplitl [H0]; · iexists d0; iexact H0
      isplitl [H1]; · iexact H1
      iexists _
      rw [win0_2.fill_congr_cut (grid0.coords t) (cut2_eq t _ _ hA)]
      iexact H2
    · have hc2 : ¬k0_cond2 (grid0.coords t) = 1#1 := fun h => h1 ((hlast t).mp h)
      rw [Dat.leaves_idle (dats m 0 c) 2 t (idle2 t hc2) (noflush2 t hc2)]
      iintro ⟨⟨⟨%S, %hS, HS⟩, Hg⟩, Ho, ⟨%d0, H0⟩, ⟨%d1, H1⟩, ⟨%d2, H2⟩⟩
      iapply (bodyB (F := Ideal) c (grid0.coords t) _ _ _ _ _ _ accM (Memref.isWhole_whole _) hc1 hc2
        (win0_0.fill (grid0.coords t) d0 (iblk m c 0 t)) (X1 m c t) ((dats m 0 c).before 2 t d2) S Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr; · ipureintro; exact agree_next m c t d0 S h0 hS
          iexact HS
        iexact Hg
      isplitl [Ho]; · iexact Ho
      isplitl [H0]; · iexists d0; iexact H0
      isplitl [H1]; · iexact H1
      iexists d2; iexact H2

/-- The loop's body obligation, at every point. -/
theorem body_obligation (c : Dev nD) :
    BodyObligationLoose (dats m 0 c) (defs₀ (F := Ideal)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N from rfl, PhiA_eq]
  exact PhiS_any m c _

/-! ## The run -/

set_option backward.isDefEq.respectTransparency.types false in
/-- Every weakly fair execution of @main terminates without a fault, every windowed array ends at what the proof
    data computes and every other unscoped buffer as the host lines after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Data

end Cert.KernelIdeal.Body

end
-- ==== Proof.Spec.lean ====
/-
  The mathematics both programs are measured against, stated over plain natural-number indices so that no
  statement depends on how an array's index type is spelled.

  A Gaussian membership table `h` of ten rows and six columns, entry `(k, q)` being
  `exp (-(a k q - X k)² / (2 · (b k q)²))`, is combined row by row into the flattened outer product
  `chain h lo n`: the product of rows `lo … lo+n`, the last row varying fastest (entry `f` of the next stage is
  entry `f / 6` of the previous stage times entry `f % 6` of the new row).  The reference sums the ten-row product
  against the consequents `y` and divides by its plain sum; the kernel factors the product into rows `0‥2` (216
  entries) and rows `3‥9` (279936 entries), sums each row of the 216 × 279936 reading of `y` against the column
  factor in 27 tiles of 10368 lanes, and divides by the product of the two factors' sums.
-/
import Idealize.ShloMosaic.PureOps.Ideal
import Idealize.ShloMosaic.Lib.ValueIdx

noncomputable section

open scoped BigOperators

namespace Cert.Spec

open Idealize.ShloMosaic Idealize.ShloMosaic.ValueIdx

/-- One more six-entry factor: entry `f` is entry `f / 6` of `u` times entry `f % 6` of `v`. -/
def ext (u v : ℕ → EReal) : ℕ → EReal := fun f => u (f / 6) * v (f % 6)

/-- The flattened outer product of rows `lo, lo+1, …, lo+n` of `h`, the last row varying fastest. -/
def chain (h : ℕ → ℕ → EReal) (lo : ℕ) : ℕ → ℕ → EReal
  | 0 => h lo
  | n + 1 => ext (chain h lo n) (h (lo + n + 1))

/-- A one-axis array read at a natural number (zero past its end). -/
def nat1 {n : ℕ} (f : (⟨1, ![n]⟩ : Shape).Idx → EReal) : ℕ → EReal :=
  fun k => if hk : k < n then f (ix1 ⟨k, hk⟩) else 0

/-- A two-axis array read at two natural numbers (zero outside it). -/
def nat2 {n0 n1 : ℕ} (f : (⟨2, ![n0, n1]⟩ : Shape).Idx → EReal) : ℕ → ℕ → EReal :=
  fun p q => if hp : p < n0 then (if hq : q < n1 then f (ix2 ⟨p, hp⟩ ⟨q, hq⟩) else 0) else 0

/-- The consequent table read row-major at one flat index: entry `f` is row `f / 6`, column `f % 6`. -/
def flat6 {n0 : ℕ} (y : (⟨2, ![n0, 6]⟩ : Shape).Idx → EReal) : ℕ → EReal := fun f => nat2 y (f / 6) (f % 6)

/-- The membership table: entry `(k, q)` is `exp (-(a k q - X k)² / (2 · (b k q)²))`, every operation the
    extended reals' own (a zero width gives `exp ⊥ = 0`). -/
def memb (X : (⟨1, ![10]⟩ : Shape).Idx → EReal) (a b : (⟨2, ![10, 6]⟩ : Shape).Idx → EReal) :
    (⟨2, ![10, 6]⟩ : Shape).Idx → EReal := fun i =>
  Ideal.exp (Ideal.div (-((a i - X (ix1 (i 0))) * (a i - X (ix1 (i 0)))))
    (Ideal.ofBits .f32 0x40000000#32 * (b i * b i)))

/-- The reference's numerator: the ten-row product summed against the consequents. -/
def refNum (h : ℕ → ℕ → EReal) (y : ℕ → EReal) : EReal := ∑ f ∈ Finset.range 60466176, chain h 0 9 f * y f
/-- The reference's denominator: the ten-row product summed. -/
def refDen (h : ℕ → ℕ → EReal) : EReal := ∑ f ∈ Finset.range 60466176, chain h 0 9 f

/-- The kernel's row sums: row `row` of the 216 × 279936 reading of `y` against the seven-row column factor, tile by tile. -/
def kerT (h : ℕ → ℕ → EReal) (y : ℕ → EReal) (row : ℕ) : EReal :=
  ∑ jb ∈ Finset.range 27, ∑ l ∈ Finset.range 10368,
    y (row * 279936 + (jb * 10368 + l)) * chain h 3 6 (jb * 10368 + l)
/-- The kernel's numerator: the three-row factor against the row sums. -/
def kerNum (h : ℕ → ℕ → EReal) (y : ℕ → EReal) : EReal := ∑ row ∈ Finset.range 216, chain h 0 2 row * kerT h y row
/-- The kernel's denominator: the product of the two factors' sums. -/
def kerDen (h : ℕ → ℕ → EReal) : EReal :=
  (∑ row ∈ Finset.range 216, chain h 0 2 row) * (∑ col ∈ Finset.range 279936, chain h 3 6 col)

end Cert.Spec

end
-- ==== Proof.RegionOut.lean ====
/-
  What the region's result array holds after the run, as one function of the arrays the region finds: row `R` of
  the 216 × 1 result is the sum, over the 27 column tiles and the 10368 lanes of each, of the table's entry in row `R`
  times the column factor's entry in that lane.
-/
import proofs.«178313_j27496380629713_2_alg».proof.Proof.Gen.KernelIdeal.Frame
import proofs.«178313_j27496380629713_2_alg».proof.Proof.Spec

noncomputable section

open scoped BigOperators

namespace Cert.KernelIdeal.RegionOut

open Cert.KernelIdeal Cert.KernelIdeal.Gen Idealize.ShloMosaic Idealize.ShloMosaic.TcCoe Idealize.SL.Sem

/-- The result array after the run: each row's tile-by-tile sum of table × column factor. -/
def G (m : (ℓ : Loc nD τ sig) → Buf (Elt Ideal) ℓ) (c : Dev nD) : S216x1.Idx → EReal := fun i =>
  ∑ jb ∈ Finset.range 27, ∑ l ∈ Finset.range 10368,
    Cert.Spec.nat2 (Gen.V m c main_v78 : S216x279936.Idx → EReal) (i 0).val (jb * 10368 + l)
      * Cert.Spec.nat2 (Gen.V m c main_v79 : S1x279936.Idx → EReal) 0 (jb * 10368 + l)

end Cert.KernelIdeal.RegionOut

end
-- ==== Proof.NatRead.lean ====
/-
  Arrays read at natural-number indices: the small general facts about `nat1` and `nat2` that both programs' value
  proofs use.  An array at an index is its natural-number reading at the index's coordinates; a sum over a one-axis
  index set is a sum over a range; a one-axis array that lists one row of a table reads as that row; and a flat array
  of `6 n` entries whose entry `i` is entry `i / 6` of one array times entry `i % 6` of a six-entry array reads
  as one `ext` step.  Nothing here mentions a program.
-/
import proofs.«178313_j27496380629713_2_alg».proof.Proof.Spec

noncomputable section

open scoped BigOperators

namespace Cert.NatRead

open Cert.Spec Idealize.ShloMosaic Idealize.ShloMosaic.ValueIdx

/-! ## Arrays read at natural numbers -/

/-- A one-axis array at an index is its natural-number reading at the index's coordinate. -/
theorem nat1_at {n : ℕ} (g : (⟨1, ![n]⟩ : Shape).Idx → EReal) (j : (⟨1, ![n]⟩ : Shape).Idx) :
    g j = nat1 g (j 0).val := by
  have h0 : (j 0).val < n := (j 0).isLt
  unfold nat1
  rw [dif_pos h0]
  exact congrArg g (eq_ix1 j)

/-- Past its end a one-axis array reads zero. -/
theorem nat1_of_not_lt {n : ℕ} (g : (⟨1, ![n]⟩ : Shape).Idx → EReal) (k : ℕ) (hk : ¬ k < n) : nat1 g k = 0 := by
  unfold nat1
  rw [dif_neg hk]

/-- A two-axis array at an index is its natural-number reading at the index's two coordinates. -/
theorem nat2_at {n0 n1 : ℕ} (g : (⟨2, ![n0, n1]⟩ : Shape).Idx → EReal) (j : (⟨2, ![n0, n1]⟩ : Shape).Idx) :
    g j = nat2 g (j 0).val (j 1).val := by
  have h0 : (j 0).val < n0 := (j 0).isLt
  have h1 : (j 1).val < n1 := (j 1).isLt
  unfold nat2
  rw [dif_pos h0, dif_pos h1]
  exact congrArg g (eq_ix2 j)

/-- A sum over a one-axis index set is the sum of the natural-number reading over the range. -/
theorem sum_idx1 {n : ℕ} (g : (⟨1, ![n]⟩ : Shape).Idx → EReal) :
    ∑ j, g j = ∑ f ∈ Finset.range n, nat1 g f := by
  rw [← Fin.sum_univ_eq_sum_range (fun f => nat1 g f) n]
  exact Fintype.sum_equiv
    (⟨fun j => j 0, fun i => ix1 i, fun j => (eq_ix1 j).symm, fun _ => rfl⟩ : (⟨1, ![n]⟩ : Shape).Idx ≃ Fin n)
    _ _ (fun j => nat1_at g j)

/-- One row of a two-axis table, given as a one-axis array whose entry `q` is the table's entry `(k, q)`. -/
theorem row_eq {n0 n1 : ℕ} (M : (⟨2, ![n0, n1]⟩ : Shape).Idx → EReal) (r : (⟨1, ![n1]⟩ : Shape).Idx → EReal)
    (k : ℕ) (hk : k < n0) (jr : (⟨1, ![n1]⟩ : Shape).Idx → (⟨2, ![n0, n1]⟩ : Shape).Idx)
    (h0 : ∀ i, (jr i 0).val = k) (h1 : ∀ i, (jr i 1).val = (i 0).val % n1)
    (hr : ∀ i, r i = M (jr i)) : nat1 r = nat2 M k := by
  funext q
  by_cases hq : q < n1
  · have e := hr (ix1 ⟨q, hq⟩)
    rw [nat1_at r, nat2_at M, h0, h1] at e
    have e' : nat1 r q = nat2 M k (q % n1) := e
    rw [Nat.mod_eq_of_lt hq] at e'
    exact e'
  · rw [nat1_of_not_lt r q hq]
    unfold nat2
    rw [dif_pos hk, dif_neg hq]

/-- One step of the chain: a flat array of `6 n` entries whose entry `i` is entry `i / 6` of `u` times entry
    `i % 6` of the six-entry row `r` reads as `ext` of the two readings. Past the end both sides are zero. -/
theorem step_eq {n m : ℕ} (hm : m = 6 * n) (u : (⟨1, ![n]⟩ : Shape).Idx → EReal)
    (r : (⟨1, ![6]⟩ : Shape).Idx → EReal) (w : (⟨1, ![m]⟩ : Shape).Idx → EReal)
    (ju : (⟨1, ![m]⟩ : Shape).Idx → (⟨1, ![n]⟩ : Shape).Idx) (jr : (⟨1, ![m]⟩ : Shape).Idx → (⟨1, ![6]⟩ : Shape).Idx)
    (hju : ∀ i, (ju i 0).val = (i 0).val / 6) (hjr : ∀ i, (jr i 0).val = (i 0).val % 6)
    (hw : ∀ i, w i = u (ju i) * r (jr i)) : nat1 w = ext (nat1 u) (nat1 r) := by
  funext f
  unfold ext
  by_cases hf : f < m
  · have e := hw (ix1 ⟨f, hf⟩)
    rw [nat1_at w, nat1_at u, nat1_at r, hju, hjr] at e
    exact e
  · rw [nat1_of_not_lt w f hf, nat1_of_not_lt u (f / 6) (by omega), zero_mul]

end Cert.NatRead

end
-- ==== Proof.RegionBlocks.lean ====
/-
  The region's blocks read at natural-number indices.

  The grid's 54 points are `t = 27·i + j`.  The consequent table's tile at `t` is rows `112·i …` and lanes
  `10368·j …` of its 216 × 279936 reading; the column factor's tile is lanes `10368·j …` of its one row; the
  result's block is rows `112·i …` of its one column.  An entry of a block sits in its array at block index times
  block size plus the coordinate inside the block, on each axis; the block indices are decided once over the grid.
  The second row block overhangs the table by eight rows: only its first 104 rows are entries of the array.
-/
import proofs.«178313_j27496380629713_2_alg».proof.Proof.IBody
import proofs.«178313_j27496380629713_2_alg».proof.Proof.Spec
import proofs.«178313_j27496380629713_2_alg».proof.Proof.NatRead
import Idealize.ShloMosaic.Lib.Pipeline.Value

set_option maxRecDepth 16384

noncomputable section

namespace Cert.KernelIdeal.RegionBlocks

open Cert.KernelIdeal Cert.KernelIdeal.Gen Cert.Spec Cert.NatRead
open Idealize.ShloMosaic Idealize.ShloMosaic.TcCoe Idealize.ShloMosaic.ValueIdx Idealize.SL.Sem
open Idealize.ShloMosaic.Pipeline (Dat Cfg Window)

/-! ## The block indices, decided over the grid -/

/-- The table's tile at point `t` is row block `t / 27`, column tile `t % 27`. -/
theorem idx0 : ∀ t : Fin cfg0.N, win0_0.index t (0 : Fin 2) = t.val / 27 ∧ win0_0.index t (1 : Fin 2) = t.val % 27 :=
  (by decide +kernel : ∀ t : Fin grid0.N, win0_0.index t (0 : Fin 2) = t.val / 27 ∧ win0_0.index t (1 : Fin 2) = t.val % 27)
/-- The column factor's tile at point `t` is column tile `t % 27` of its one row. -/
theorem idx1 : ∀ t : Fin cfg0.N, win0_1.index t (0 : Fin 2) = 0 ∧ win0_1.index t (1 : Fin 2) = t.val % 27 :=
  (by decide +kernel : ∀ t : Fin grid0.N, win0_1.index t (0 : Fin 2) = 0 ∧ win0_1.index t (1 : Fin 2) = t.val % 27)
/-- The result's block at point `t` is row block `t / 27` of its one column. -/
theorem idx2 : ∀ t : Fin cfg0.N, win0_2.index t (0 : Fin 2) = t.val / 27 ∧ win0_2.index t (1 : Fin 2) = 0 :=
  (by decide +kernel : ∀ t : Fin grid0.N, win0_2.index t (0 : Fin 2) = t.val / 27 ∧ win0_2.index t (1 : Fin 2) = 0)

/-! ## Where a block's entry sits in its array -/

/-- An entry of the table's tile at `t` sits at row `112 (t / 27) + x₀`, lane `10368 (t % 27) + x₁`. -/
theorem emb0 (t : Fin cfg0.N) (x : (win0_0.xblock (grid0.coords t)).Idx)
    (h0 : t.val / 27 * 112 + (x 0).val < 216) (h1 : t.val % 27 * 10368 + (x 1).val < 279936) :
    ((cfg0.win 0).blk t).view.emb x
      = (ix2 ⟨t.val / 27 * 112 + (x 0).val, h0⟩ ⟨t.val % 27 * 10368 + (x 1).val, h1⟩ : S216x279936.Idx) := by
  obtain ⟨e0, e1⟩ := idx0 t
  funext a; apply Fin.ext
  match a with
  | ⟨0, _⟩ => show win0_0.index t (0 : Fin 2) * 112 + 1 * (x 0).val = t.val / 27 * 112 + (x 0).val; rw [e0]; omega
  | ⟨1, _⟩ => show win0_0.index t (1 : Fin 2) * 10368 + 1 * (x 1).val = t.val % 27 * 10368 + (x 1).val; rw [e1]; omega

/-- An entry of the column factor's tile at `t` sits at lane `10368 (t % 27) + x₁` of the one row. -/
theorem emb1 (t : Fin cfg0.N) (x : (win0_1.xblock (grid0.coords t)).Idx) (h : t.val % 27 * 10368 + (x 1).val < 279936) :
    ((cfg0.win 1).blk t).view.emb x = (ix2 (0 : Fin 1) ⟨t.val % 27 * 10368 + (x 1).val, h⟩ : S1x279936.Idx) := by
  obtain ⟨e0, e1⟩ := idx1 t
  have hx0 : (x 0).val < 1 := (x 0).isLt
  funext a; apply Fin.ext
  match a with
  | ⟨0, _⟩ => show win0_1.index t (0 : Fin 2) * 1 + 1 * (x 0).val = 0; rw [e0]; omega
  | ⟨1, _⟩ => show win0_1.index t (1 : Fin 2) * 10368 + 1 * (x 1).val = t.val % 27 * 10368 + (x 1).val; rw [e1]; omega

/-- (B3) An entry of the result's block at `t` sits at row `112 (t / 27) + x₀`. -/
theorem blk2_emb (t : Fin cfg0.N) (x : (win0_2.xblock (grid0.coords t)).Idx) :
    ((((cfg0.win 2).blk t).view.emb x) 0).val = t.val / 27 * 112 + (x 0).val := by
  obtain ⟨e0, _⟩ := idx2 t
  show win0_2.index t (0 : Fin 2) * 112 + 1 * (x 0).val = _
  rw [e0]; omega

/-! ## The two input blocks as the region finds them -/

variable (m : (ℓ : Loc nD τ sig) → Buf (Elt Ideal) ℓ)

/-- The table's tile at `t`, at an entry whose place in the array is `i`. -/
theorem read0 (c : Dev nD) (t : Fin cfg0.N) (x : (win0_0.xblock (grid0.coords t)).Idx) (i : S216x279936.Idx)
    (he : ((cfg0.win 0).blk t).view.emb x = i) :
    iblk m c 0 t x = (Gen.V m c main_v78 : S216x279936.Idx → EReal) i := by
  unfold iblk
  rw [View.read_apply]
  show V m c main_v78 (((cfg0.win 0).blk t).view.emb x) = V m c main_v78 i
  rw [he]

/-- The column factor's tile at `t`, at an entry whose place in the array is `i`. -/
theorem read1 (c : Dev nD) (t : Fin cfg0.N) (x : (win0_1.xblock (grid0.coords t)).Idx) (i : S1x279936.Idx)
    (he : ((cfg0.win 1).blk t).view.emb x = i) :
    iblk m c 1 t x = (Gen.V m c main_v79 : S1x279936.Idx → EReal) i := by
  unfold iblk
  rw [View.read_apply]
  show V m c main_v79 (((cfg0.win 1).blk t).view.emb x) = V m c main_v79 i
  rw [he]

/-- (B1) The table's named tile on a row inside the array. -/
theorem tile_read (c : Dev nD) (t : Fin cfg0.N) (r : Fin 112) (hr : r.val < Body.rowsIn t.val) (l : Fin 10368) :
    Body.Y0 m c t (ix2 r l)
      = Cert.Spec.nat2 (Gen.V m c main_v78 : S216x279936.Idx → EReal) (t.val / 27 * 112 + r.val) (t.val % 27 * 10368 + l.val) := by
  have hN : t.val < 54 := lt_of_lt_of_eq t.isLt N_0
  have hl : l.val < 10368 := l.isLt
  have hr' : r.val < if t.val < 27 then 112 else 104 := hr
  have h0 : t.val / 27 * 112 + r.val < 216 := by split at hr' <;> omega
  have h1 : t.val % 27 * 10368 + l.val < 279936 := by omega
  have hm : win0_0.moved (grid0.coords t) (ix2 r l) = true := (win0_0.moved_iff _ _).mpr (fun a => by
    match a with
    | ⟨0, _⟩ => show r.val < win0_0.xsize (grid0.coords t) 0; rw [Body.xs0_0]; exact hr
    | ⟨1, _⟩ => show l.val < win0_0.xsize (grid0.coords t) 1; rw [Body.xs0_1]; exact l.isLt)
  unfold Body.Y0 Window.fill
  rw [dif_pos hm]
  refine (read0 m c t _ _ (emb0 t _ h0 h1)).trans ?_
  exact nat2_at (Gen.V m c main_v78 : S216x279936.Idx → EReal) _

/-- (B2) The column factor's named tile. -/
theorem col_read (c : Dev nD) (t : Fin cfg0.N) (l : Fin 10368) :
    Body.X1 m c t (ix2 (0 : Fin 1) l)
      = Cert.Spec.nat2 (Gen.V m c main_v79 : S1x279936.Idx → EReal) 0 (t.val % 27 * 10368 + l.val) := by
  have hN : t.val < 54 := lt_of_lt_of_eq t.isLt N_0
  have hl : l.val < 10368 := l.isLt
  have h1 : t.val % 27 * 10368 + l.val < 279936 := by omega
  unfold Body.X1
  refine (read1 m c t (ix2 (0 : Fin 1) l) _ (emb1 t (ix2 (0 : Fin 1) l) h1)).trans ?_
  exact nat2_at (Gen.V m c main_v79 : S1x279936.Idx → EReal) _

/-! ## The result's blocks cover its array -/

/-- An index of the result's array is in point `t`'s block iff each coordinate is in the block's range, cut at the
    array's end. -/
theorem mem_blk2 (t : Fin cfg0.N) (i : S216x1.Idx) :
    i ∈ ((cfg0.win 2).blk t).view.set ↔ ∀ a : Fin 2, win0_2.index t a * S112x1.size a ≤ (i a).val
      ∧ (i a).val < win0_2.index t a * S112x1.size a + win0_2.xsize (grid0.coords t) a := by
  show i ∈ ((View.whole main_v80).slice (win0_2.rect t)).set ↔ _
  rw [View.set_slice_whole, Rect.mem_set_unit]
  exact Iff.rfl

/-- Row `r` of the result is written back at the last column tile of its row block, the point `27 (r / 112) + 26`. -/
theorem cover2' (i : S216x1.Idx) :
    ∃ t : Fin cfg0.N, (cfg0.win 2).flush t = true ∧ i ∈ ((cfg0.win 2).blk t).view.set := by
  have hi0 : (i 0).val < 216 := (i 0).isLt
  have hi1 : (i 1).val < 1 := (i 1).isLt
  have hlt : 27 * ((i 0).val / 112) + 26 < 54 := by omega
  obtain ⟨t, htv⟩ : ∃ t : Fin cfg0.N, t.val = 27 * ((i 0).val / 112) + 26 :=
    ⟨⟨_, lt_of_lt_of_eq hlt N_0.symm⟩, rfl⟩
  obtain ⟨e0, e1⟩ := idx2 t
  have x0 := Body.xs2_0 t
  have x1 := Body.xs2_1 t
  refine ⟨t, (flush0_2 t).mpr (by omega), ?_⟩
  rw [mem_blk2]
  intro a
  match a with
  | ⟨0, _⟩ =>
    show win0_2.index t (0 : Fin 2) * 112 ≤ (i 0).val
      ∧ (i 0).val < win0_2.index t (0 : Fin 2) * 112 + win0_2.xsize (grid0.coords t) 0
    rw [e0, x0]
    split <;> omega
  | ⟨1, _⟩ =>
    show win0_2.index t (1 : Fin 2) * 1 ≤ (i 1).val
      ∧ (i 1).val < win0_2.index t (1 : Fin 2) * 1 + win0_2.xsize (grid0.coords t) 1
    rw [e1, x1]; omega

/-- (B4) Every entry of the result's array is in the block of some point that writes back. -/
theorem cover2 (c : Dev nD) : ∀ i : ((cfg0.win 2).arr.view.loc (c.tc : Thread nD τ)).2.ty.Idx,
    ∃ t : Fin cfg0.N, (cfg0.win 2).flush t = true ∧ i ∈ ((cfg0.win 2).blk t).view.set :=
  fun i => cover2' i

end Cert.KernelIdeal.RegionBlocks

end
-- ==== Proof.RegionValue.lean ====
/-
  The region's result in closed form.  The accumulator after column tile `j` of row block `i` holds, row by row, the
  sum over the tiles `0 ‥ j` of the lane sums of table times column factor; at the last tile the rows inside the
  array are written back, and they are the rows of the whole-array function `G`; the written blocks cover the
  array, so the array ends holding `G`.
-/
import proofs.«178313_j27496380629713_2_alg».proof.Proof.IBody
import proofs.«178313_j27496380629713_2_alg».proof.Proof.RegionOut
import proofs.«178313_j27496380629713_2_alg».proof.Proof.RegionBlocks
import proofs.«178313_j27496380629713_2_alg».proof.Proof.Spec
import proofs.«178313_j27496380629713_2_alg».proof.Proof.NatRead
import Idealize.ShloMosaic.Lib.Pipeline.Value

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The accumulator in closed form -/

/-- An accumulator that starts from zero at the first column tile of a row block and otherwise adds the tile's lane
    sums to its value at the point before holds, at column tile `j` of row block `i`, the sum over the tiles
    `0 ‥ j` of the lane sums, row by row. -/
theorem acc_closed (Y : ℕ → Vec Ideal S112x10368 .f32) (X : ℕ → Vec Ideal S1x10368 .f32)
    (acc : ℕ → Vec Ideal S112x1 .f32)
    (hfirst : ∀ n, n % 27 = 0 → acc n = Gen.k0_pay2 (F := Ideal) (Y n) (X n) (Gen.k0_pay1 (F := Ideal)))
    (hnext : ∀ n, ¬n % 27 = 0 → acc n = Gen.k0_pay2 (F := Ideal) (Y n) (X n) (acc (n - 1)))
    (i j : ℕ) (hj : j < 27) (r : Fin 112) :
    acc (27 * i + j) (ix2 r (0 : Fin 1))
      = ∑ jb ∈ Finset.range (j + 1), ∑ l : Fin 10368,
          Y (27 * i + jb) (ix2 r l) * X (27 * i + jb) (ix2 (0 : Fin 1) l) := by
  induction j with
  | zero =>
    rw [hfirst (27 * i + 0) (by omega), Cert.PayRead.pay2_apply, Cert.PayRead.pay1_apply, zero_add,
      Finset.sum_range_one]
  | succ j ih =>
    have hn : ¬(27 * i + (j + 1)) % 27 = 0 := by omega
    have hp : 27 * i + (j + 1) - 1 = 27 * i + j := by omega
    rw [hnext _ hn, Cert.PayRead.pay2_apply, hp, ih (by omega)]
    exact (Finset.sum_range_succ
      (fun jb => ∑ l : Fin 10368, Y (27 * i + jb) (ix2 r l) * X (27 * i + jb) (ix2 (0 : Fin 1) l)) (j + 1)).symm

/-! ## The written-back block is the block of `G` -/

section Data

variable (m : (ℓ : Loc nD τ sig) → Buf (Elt Ideal) ℓ)

/-- The accumulator after point `27 i + j`, row by row, over the named tiles. -/
theorem accS_closed (c : Dev nD) (i j : ℕ) (hj : j < 27) (r : Fin 112) :
    Body.accS m c (27 * i + j) (ix2 r (0 : Fin 1))
      = ∑ jb ∈ Finset.range (j + 1), ∑ l : Fin 10368,
          Body.Y0 m c (Body.pt (27 * i + jb)) (ix2 r l) * Body.X1 m c (Body.pt (27 * i + jb)) (ix2 (0 : Fin 1) l) :=
  acc_closed (fun n => Body.Y0 m c (Body.pt n)) (fun n => Body.X1 m c (Body.pt n)) (Body.accS m c)
    (fun n h => Body.accS_first m c n h) (fun n h => Body.accS_next m c n h) i j hj r

/-- At the last column tile of a row block a row inside the array holds the row of `G`: the sum over all 27 tiles
    and their lanes of the table's entry times the column factor's. -/
theorem accS_last (c : Dev nD) (t : Fin cfg0.N) (h : t.val % 27 = 26) (r : Fin 112) (hr : r.val < Body.rowsIn t.val) :
    Body.accS m c t.val (ix2 r (0 : Fin 1))
      = ∑ jb ∈ Finset.range 27, ∑ l ∈ Finset.range 10368,
          Cert.Spec.nat2 (Gen.V m c main_v78 : S216x279936.Idx → EReal) (t.val / 27 * 112 + r.val) (jb * 10368 + l)
            * Cert.Spec.nat2 (Gen.V m c main_v79 : S1x279936.Idx → EReal) 0 (jb * 10368 + l) := by
  have hN : t.val < 54 := lt_of_lt_of_eq t.isLt N_0
  have ht : t.val = 27 * (t.val / 27) + 26 := by omega
  rw [ht, accS_closed m c (t.val / 27) 26 (by omega) r]
  refine Finset.sum_congr rfl fun jb hjb => ?_
  have hjb' : jb < 27 := Finset.mem_range.mp hjb
  have hv : (Body.pt (27 * (t.val / 27) + jb)).val = 27 * (t.val / 27) + jb := by
    show (27 * (t.val / 27) + jb) % 54 = _
    omega
  have hq : (Body.pt (27 * (t.val / 27) + jb)).val / 27 = (27 * (t.val / 27) + 26) / 27 := by rw [hv]; omega
  have hm : (Body.pt (27 * (t.val / 27) + jb)).val % 27 = jb := by rw [hv]; omega
  have hrows : r.val < Body.rowsIn (Body.pt (27 * (t.val / 27) + jb)).val := by
    rw [hv]; unfold Body.rowsIn at hr ⊢; split at hr <;> split <;> omega
  rw [← Fin.sum_univ_eq_sum_range (fun l =>
    Cert.Spec.nat2 (Gen.V m c main_v78 : S216x279936.Idx → EReal) ((27 * (t.val / 27) + 26) / 27 * 112 + r.val) (jb * 10368 + l)
      * Cert.Spec.nat2 (Gen.V m c main_v79 : S1x279936.Idx → EReal) 0 (jb * 10368 + l)) 10368]
  refine Finset.sum_congr rfl fun l _ => ?_
  rw [RegionBlocks.tile_read m c _ r hrows l, RegionBlocks.col_read m c _ l, hq, hm]

/-- What the write-back at a last column tile writes is that point's block of `G`. -/
theorem flushed_eq (c : Dev nD) (t : Fin cfg0.N) (h : t.val % 27 = 26) :
    (Body.dats m 0 c).flushed 2 t = ((cfg0.win 2).blk t).view.read (Elt Ideal) (RegionOut.G m c) := by
  funext x
  show Body.accS m c t.val (win0_2.xinj (grid0.coords t) x) = RegionOut.G m c (((cfg0.win 2).blk t).view.emb x)
  have h0 : (x 0).val < win0_2.xsize (grid0.coords t) 0 := (x 0).isLt
  have h1 : (x 1).val < win0_2.xsize (grid0.coords t) 1 := (x 1).isLt
  rw [Body.xs2_0] at h0; rw [Body.xs2_1] at h1
  have hr : (x 0).val < Body.rowsIn t.val := h0
  have h0' : (x 0).val < 112 := by split at h0 <;> omega
  have e : win0_2.xinj (grid0.coords t) x = ix2 (⟨(x 0).val, h0'⟩ : Fin 112) (0 : Fin 1) :=
    funext fun a => Fin.ext (by
      match a with
      | ⟨0, _⟩ => rfl
      | ⟨1, _⟩ => show (x 1).val = 0; omega)
  rw [e, accS_last m c t h ⟨(x 0).val, h0'⟩ hr]
  unfold RegionOut.G
  rw [RegionBlocks.blk2_emb t x]

/-- THE RESULT ARRAY after the run is `G`. -/
theorem final_out (c : Dev nD) : (Body.dats m 0 c).arrAt 2 cfg0.N = RegionOut.G m c :=
  (Body.dats m 0 c).arrAt_eq_of_cover 2 (RegionOut.G m c)
    (fun t hf => flushed_eq m c t ((flush0_2 t).mp hf)) (RegionBlocks.cover2 c)

end Data

end Cert.KernelIdeal.RegionValue

end
-- ==== Proof.KerHost.lean ====
/-
  What the host operations leave in the four arrays the region reads.

  From the three small arguments `X`, `a`, `b` the host operations compute the ten-by-six table
  `exp (-(a - X)² / (2 · b²))`, which is the Gaussian membership table `memb X a b`. Each row of it is cut
  out as a six-entry array, and rows are multiplied together one stage at a time: a stage spreads an `n`-entry
  factor along the rows of an `n × 6` table and a six-entry row along its columns, multiplies, and reads the
  table row-major, so entry `f` of the result is entry `f / 6` of the factor times entry `f % 6` of the row —
  one `ext` step. Two stages over rows 0, 1, 2 give the 216-entry factor `chain h 0 2`; six stages over rows
  3 … 9 give the 279936-entry factor `chain h 3 6`, which is also laid out as one row of 279936 columns. The
  consequents `y`, ten million rows of six, are read row-major as 216 rows of 279936 columns, so entry
  `(p, q)` is flat entry `p · 279936 + q`.

  The stage, the row and the table are proved once, at any size, over the operations themselves; the program
  enters only through the four equations that say which term each array holds.
-/
import proofs.«178313_j27496380629713_2_alg».proof.Proof.Spec
import proofs.«178313_j27496380629713_2_alg».proof.Proof.Gen.KernelIdeal.Frame
import Idealize.ShloMosaic.Lib.ValueLayout

set_option maxRecDepth 16384
set_option Elab.async false

noncomputable section

namespace Cert.KerHost

open Cert.KernelIdeal Cert.KernelIdeal.Gen
open Idealize.ShloMosaic Idealize.ShloMosaic.TcCoe Idealize.ShloMosaic.ValueIdx Idealize.ShloMosaic.StableHlo
open Idealize.SL.Sem

open Cert.Spec

/-! ## One stage of the outer product, at any size -/

/-- One stage: an `[n]` factor spread along the rows of an `[n, 6]` table, a six-entry factor spread along its
    columns, their product read row-major as `[N]` with `N = n * 6`: entry `f` is entry `f / 6` of the first
    factor times entry `f % 6` of the second. -/
theorem nat1_stage {n N : ℕ} (hN : N = n * 6)
    (u : (⟨1, ![n]⟩ : Shape).Idx → EReal) (v : (⟨1, ![6]⟩ : Shape).Idx → EReal)
    (w1 : (⟨1, ![n]⟩ : Shape).BroadcastsInDim ⟨2, ![n, 1]⟩ (![0] : Fin 1 → Fin 2))
    (w2 : (⟨2, ![n, 1]⟩ : Shape).BroadcastsInDim ⟨2, ![n, 6]⟩ (![0, 1] : Fin 2 → Fin 2))
    (w3 : (⟨1, ![6]⟩ : Shape).BroadcastsInDim ⟨2, ![1, 6]⟩ (![1] : Fin 1 → Fin 2))
    (w4 : (⟨2, ![1, 6]⟩ : Shape).BroadcastsInDim ⟨2, ![n, 6]⟩ (![0, 1] : Fin 2 → Fin 2))
    (w5 : (⟨2, ![n, 6]⟩ : Shape).ShapeCasts ⟨1, ![N]⟩) :
    nat1 (shapeCast ⟨1, ![N]⟩
      (mulf (F := Ideal) (φ := .f32)
        (broadcastInDim ⟨2, ![n, 6]⟩ ![0, 1] w2 (broadcastInDim ⟨2, ![n, 1]⟩ ![0] w1 u))
        (broadcastInDim ⟨2, ![n, 6]⟩ ![0, 1] w4 (broadcastInDim ⟨2, ![1, 6]⟩ ![1] w3 v))) w5)
      = ext (nat1 u) (nat1 v) := by
  funext f
  dsimp only [nat1, ext]
  by_cases hf : f < N
  · have hq : f / 6 < n := by omega
    have hr : f % 6 < 6 := by omega
    rw [dif_pos hf, dif_pos hq, dif_pos hr]
    rw [shapeCast_apply _ w5 (ix1 ⟨f, hf⟩) (ix2 ⟨f / 6, hq⟩ ⟨f % 6, hr⟩) (by
      rw [Shape.rowMajor_val_two, Shape.rowMajor_val_one]
      show f / 6 * 6 + f % 6 = f
      omega)]
    rw [mulf_apply]
    congr 1
    · refine (broadcastInDim_apply _ w2 _ (ix2 ⟨f / 6, hq⟩ ⟨f % 6, hr⟩) (ix2 ⟨f / 6, hq⟩ (0 : Fin 1)) ?_).trans
        (broadcastInDim_apply _ w1 _ (ix2 ⟨f / 6, hq⟩ (0 : Fin 1)) (ix1 ⟨f / 6, hq⟩) ?_)
      · intro a
        match a with
        | ⟨0, _⟩ => show f / 6 = if n = 1 then 0 else f / 6; split_ifs <;> omega
        | ⟨1, _⟩ => show 0 = if (1 : ℕ) = 1 then 0 else f % 6; rw [if_pos rfl]
      · intro a
        match a with
        | ⟨0, _⟩ => show f / 6 = if n = 1 then 0 else f / 6; split_ifs <;> omega
    · refine (broadcastInDim_apply _ w4 _ (ix2 ⟨f / 6, hq⟩ ⟨f % 6, hr⟩) (ix2 (0 : Fin 1) ⟨f % 6, hr⟩) ?_).trans
        (broadcastInDim_apply _ w3 _ (ix2 (0 : Fin 1) ⟨f % 6, hr⟩) (ix1 ⟨f % 6, hr⟩) ?_)
      · intro a
        match a with
        | ⟨0, _⟩ => show 0 = if (1 : ℕ) = 1 then 0 else f / 6; rw [if_pos rfl]
        | ⟨1, _⟩ => show f % 6 = if (6 : ℕ) = 1 then 0 else f % 6; rw [if_neg (by decide)]
      · intro a
        match a with
        | ⟨0, _⟩ => show f % 6 = if (6 : ℕ) = 1 then 0 else f % 6; rw [if_neg (by decide)]
  · have hq : ¬ f / 6 < n := by omega
    rw [dif_neg hf, dif_neg hq, zero_mul]

/-! ## One row of the table, flattened -/

/-- Row `k` of a ten-by-six table, cut out as `[1, 6]` and read as `[6]`, is the table's row `k`. -/
theorem nat1_row (k : ℕ) (hk : k < 10) (T : (⟨2, ![10, 6]⟩ : Shape).Idx → EReal)
    (w : (⟨2, ![10, 6]⟩ : Shape).Slices ![k, 0] ⟨2, ![1, 6]⟩)
    (w' : (⟨2, ![1, 6]⟩ : Shape).ShapeCasts ⟨1, ![6]⟩) :
    nat1 (shapeCast ⟨1, ![6]⟩ (extractStridedSlice ⟨2, ![1, 6]⟩ ![k, 0] T w) w') = nat2 T k := by
  funext q
  dsimp only [nat1, nat2]
  rw [dif_pos hk]
  by_cases hq : q < 6
  · rw [dif_pos hq, dif_pos hq, shapeCast_1a_a_apply,
      slice2_axis0_apply k T w (0 : Fin 1) ⟨q, hq⟩ ⟨k, hk⟩ (by show k = k + 0; omega)]
  · rw [dif_neg hq, dif_neg hq]

/-! ## The membership table -/

/-- The table the host operations compute is the Gaussian membership table. -/
theorem table_eq (X : (⟨1, ![10]⟩ : Shape).Idx → EReal) (a b : (⟨2, ![10, 6]⟩ : Shape).Idx → EReal)
    (w1 : (⟨1, ![10]⟩ : Shape).BroadcastsInDim ⟨2, ![10, 1]⟩ (![0] : Fin 1 → Fin 2))
    (w2 : (⟨2, ![10, 1]⟩ : Shape).BroadcastsInDim ⟨2, ![10, 6]⟩ (![0, 1] : Fin 2 → Fin 2))
    (w3 : (⟨0, ![]⟩ : Shape).BroadcastsInDim ⟨2, ![10, 6]⟩ (![] : Fin 0 → Fin 2)) :
    Host.exp (F := Ideal) (φ := .f32)
      (Host.divf
        (Host.negf
          (mulf (subf a (broadcastInDim ⟨2, ![10, 6]⟩ ![0, 1] w2 (broadcastInDim ⟨2, ![10, 1]⟩ ![0] w1 X)))
            (subf a (broadcastInDim ⟨2, ![10, 6]⟩ ![0, 1] w2 (broadcastInDim ⟨2, ![10, 1]⟩ ![0] w1 X)))))
        (mulf (broadcastInDim ⟨2, ![10, 6]⟩ ![] w3 (constant (F := Ideal) ⟨0, ![]⟩ .f32 0x40000000#32)) (mulf b b)))
      = memb X a b := by
  funext i
  have hX : broadcastInDim ⟨2, ![10, 6]⟩ ![0, 1] w2 (broadcastInDim ⟨2, ![10, 1]⟩ ![0] w1 X) i = X (ix1 (i 0)) := by
    refine (broadcastInDim_apply _ w2 _ i (ix2 (i 0) (0 : Fin 1)) ?_).trans
      (broadcastInDim_apply _ w1 _ (ix2 (i 0) (0 : Fin 1)) (ix1 (i 0)) ?_)
    · intro a
      match a with
      | ⟨0, _⟩ => show (i 0).val = if (10 : ℕ) = 1 then 0 else (i 0).val; rw [if_neg (by decide)]
      | ⟨1, _⟩ => show 0 = if (1 : ℕ) = 1 then 0 else (i 1).val; rw [if_pos rfl]
    · intro a
      match a with
      | ⟨0, _⟩ => show (i 0).val = if (10 : ℕ) = 1 then 0 else (i 0).val; rw [if_neg (by decide)]
  have hc : broadcastInDim ⟨2, ![10, 6]⟩ ![] w3 (constant (F := Ideal) ⟨0, ![]⟩ .f32 0x40000000#32) i
      = Ideal.ofBits .f32 0x40000000#32 :=
    (broadcastInDim_apply _ w3 _ i ix0 (fun a => a.elim0)).trans rfl
  show Ideal.exp (Ideal.div
      (-((a i - broadcastInDim ⟨2, ![10, 6]⟩ ![0, 1] w2 (broadcastInDim ⟨2, ![10, 1]⟩ ![0] w1 X) i)
        * (a i - broadcastInDim ⟨2, ![10, 6]⟩ ![0, 1] w2 (broadcastInDim ⟨2, ![10, 1]⟩ ![0] w1 X) i)))
      (broadcastInDim ⟨2, ![10, 6]⟩ ![] w3 (constant (F := Ideal) ⟨0, ![]⟩ .f32 0x40000000#32) i * (b i * b i))) = _
  rw [hX, hc]
  rfl

/-! ## The host operations' terms -/

/-- The ten-by-six table the host operations compute from the three small arguments. -/
def tbl (X : S10.Idx → EReal) (a b : S10x6.Idx → EReal) : S10x6.Idx → EReal :=
  Host.exp (F := Ideal) (φ := .f32)
    (Host.divf
      (Host.negf
        (mulf (subf a (broadcastInDim S10x6 ![0, 1] Gen.bcast_S10x1_S10x6_0_1 (broadcastInDim S10x1 ![0] Gen.bcast_S10_S10x1_0 X)))
          (subf a (broadcastInDim S10x6 ![0, 1] Gen.bcast_S10x1_S10x6_0_1 (broadcastInDim S10x1 ![0] Gen.bcast_S10_S10x1_0 X)))))
      (mulf (broadcastInDim S10x6 ![] Gen.bcast_S_S10x6 (constant (F := Ideal) S_ .f32 0x40000000#32)) (mulf b b)))

/-- Row `k` of the table, cut out and flattened. -/
def rowAt (k : ℕ) (w : S10x6.Slices ![k, 0] S1x6) (T : S10x6.Idx → EReal) : S6.Idx → EReal :=
  shapeCast S6 (extractStridedSlice S1x6 ![k, 0] T w) Gen.shapeCasts_S1x6_S6

/-- One stage: the product of an `[n]` factor along the rows and a six-entry factor along the columns, flattened. -/
def stage {n N : ℕ}
    (w1 : (⟨1, ![n]⟩ : Shape).BroadcastsInDim ⟨2, ![n, 1]⟩ (![0] : Fin 1 → Fin 2))
    (w2 : (⟨2, ![n, 1]⟩ : Shape).BroadcastsInDim ⟨2, ![n, 6]⟩ (![0, 1] : Fin 2 → Fin 2))
    (w4 : (⟨2, ![1, 6]⟩ : Shape).BroadcastsInDim ⟨2, ![n, 6]⟩ (![0, 1] : Fin 2 → Fin 2))
    (w5 : (⟨2, ![n, 6]⟩ : Shape).ShapeCasts ⟨1, ![N]⟩)
    (u : (⟨1, ![n]⟩ : Shape).Idx → EReal) (v : S6.Idx → EReal) : (⟨1, ![N]⟩ : Shape).Idx → EReal :=
  shapeCast ⟨1, ![N]⟩
    (mulf (F := Ideal) (φ := .f32)
      (broadcastInDim ⟨2, ![n, 6]⟩ ![0, 1] w2 (broadcastInDim ⟨2, ![n, 1]⟩ ![0] w1 u))
      (broadcastInDim ⟨2, ![n, 6]⟩ ![0, 1] w4 (broadcastInDim S1x6 ![1] Gen.bcast_S6_S1x6_1 v))) w5

/-- The three-row factor: rows 0, 1, 2 of a table multiplied out, 216 entries. -/
def rowFac (T : S10x6.Idx → EReal) : S216.Idx → EReal :=
  stage Gen.bcast_S36_S36x1_0 Gen.bcast_S36x1_S36x6_0_1 Gen.bcast_S1x6_S36x6_0_1 Gen.shapeCasts_S36x6_S216
    (stage Gen.bcast_S6_S6x1_0 Gen.bcast_S6x1_S6x6_0_1 Gen.bcast_S1x6_S6x6_0_1 Gen.shapeCasts_S6x6_S36
      (rowAt 0 Gen.slices_S10x6_S1x6_0_0 T) (rowAt 1 Gen.slices_S10x6_S1x6_1_0 T))
    (rowAt 2 Gen.slices_S10x6_S1x6_2_0 T)

/-- The seven-row factor: rows 3 … 9 of a table multiplied out, 279936 entries. -/
def colFac (T : S10x6.Idx → EReal) : S279936.Idx → EReal :=
  stage Gen.bcast_S46656_S46656x1_0 Gen.bcast_S46656x1_S46656x6_0_1 Gen.bcast_S1x6_S46656x6_0_1 Gen.shapeCasts_S46656x6_S279936
    (stage Gen.bcast_S7776_S7776x1_0 Gen.bcast_S7776x1_S7776x6_0_1 Gen.bcast_S1x6_S7776x6_0_1 Gen.shapeCasts_S7776x6_S46656
      (stage Gen.bcast_S1296_S1296x1_0 Gen.bcast_S1296x1_S1296x6_0_1 Gen.bcast_S1x6_S1296x6_0_1 Gen.shapeCasts_S1296x6_S7776
        (stage Gen.bcast_S216_S216x1_0 Gen.bcast_S216x1_S216x6_0_1 Gen.bcast_S1x6_S216x6_0_1 Gen.shapeCasts_S216x6_S1296
          (stage Gen.bcast_S36_S36x1_0 Gen.bcast_S36x1_S36x6_0_1 Gen.bcast_S1x6_S36x6_0_1 Gen.shapeCasts_S36x6_S216
            (stage Gen.bcast_S6_S6x1_0 Gen.bcast_S6x1_S6x6_0_1 Gen.bcast_S1x6_S6x6_0_1 Gen.shapeCasts_S6x6_S36
              (rowAt 3 Gen.slices_S10x6_S1x6_3_0 T) (rowAt 4 Gen.slices_S10x6_S1x6_4_0 T))
            (rowAt 5 Gen.slices_S10x6_S1x6_5_0 T))
          (rowAt 6 Gen.slices_S10x6_S1x6_6_0 T))
        (rowAt 7 Gen.slices_S10x6_S1x6_7_0 T))
      (rowAt 8 Gen.slices_S10x6_S1x6_8_0 T))
    (rowAt 9 Gen.slices_S10x6_S1x6_9_0 T)

/-! ## What the buffers hold when the region is entered -/

section Buffers

variable (m : (ℓ : Loc nD τ sig) → Buf (Elt Ideal) ℓ) (c : Dev nD)

/-- The table computed from the arguments as launched. -/
abbrev tblOf : S10x6.Idx → EReal :=
  tbl (m ((c : Thread nD τ).loc main_arg0)) (m ((c : Thread nD τ).loc main_arg1)) (m ((c : Thread nD τ).loc main_arg2))

set_option maxHeartbeats 4000000 in
/-- The 216-entry buffer holds the three-row factor of the table. -/
theorem e27 : (Gen.V m c main_v27 : S216.Idx → EReal) = rowFac (tblOf m c) := by
  show StableHlo.after hostOps0 (fun b => m (c, b)) (Proc.devRef .tc main_v27) = _
  after_results_simp
  rfl

set_option maxHeartbeats 16000000 in
/-- The 279936-entry buffer holds the seven-row factor of the table. -/
theorem e77 : (Gen.V m c main_v77 : S279936.Idx → EReal) = colFac (tblOf m c) := by
  show StableHlo.after hostOps0 (fun b => m (c, b)) (Proc.devRef .tc main_v77) = _
  after_results_simp
  rfl

set_option maxHeartbeats 16000000 in
/-- The same factor laid out as one row of 279936 columns. -/
theorem e79 : (Gen.V m c main_v79 : S1x279936.Idx → EReal)
    = shapeCast S1x279936 (colFac (tblOf m c)) Gen.shapeCasts_S279936_S1x279936 := by
  show StableHlo.after hostOps0 (fun b => m (c, b)) (Proc.devRef .tc main_v79) = _
  after_results_simp
  rfl

set_option maxHeartbeats 4000000 in
/-- The consequents laid out as 216 rows of 279936 columns. -/
theorem e78 : (Gen.V m c main_v78 : S216x279936.Idx → EReal)
    = shapeCast S216x279936 (m ((c : Thread nD τ).loc main_arg3)) Gen.shapeCasts_S10077696x6_S216x279936 := by
  show StableHlo.after hostOps0 (fun b => m (c, b)) (Proc.devRef .tc main_v78) = _
  after_results_simp
  rfl

end Buffers

/-! ## The factors read at natural numbers -/

theorem nat1_stage' {n N : ℕ} (hN : N = n * 6)
    (w1 : (⟨1, ![n]⟩ : Shape).BroadcastsInDim ⟨2, ![n, 1]⟩ (![0] : Fin 1 → Fin 2))
    (w2 : (⟨2, ![n, 1]⟩ : Shape).BroadcastsInDim ⟨2, ![n, 6]⟩ (![0, 1] : Fin 2 → Fin 2))
    (w4 : (⟨2, ![1, 6]⟩ : Shape).BroadcastsInDim ⟨2, ![n, 6]⟩ (![0, 1] : Fin 2 → Fin 2))
    (w5 : (⟨2, ![n, 6]⟩ : Shape).ShapeCasts ⟨1, ![N]⟩)
    (u : (⟨1, ![n]⟩ : Shape).Idx → EReal) (v : S6.Idx → EReal) :
    nat1 (stage w1 w2 w4 w5 u v) = ext (nat1 u) (nat1 v) :=
  nat1_stage hN u v w1 w2 Gen.bcast_S6_S1x6_1 w4 w5

theorem nat1_rowAt (k : ℕ) (hk : k < 10) (w : S10x6.Slices ![k, 0] S1x6) (T : S10x6.Idx → EReal) :
    nat1 (rowAt k w T) = nat2 T k :=
  nat1_row k hk T w Gen.shapeCasts_S1x6_S6

theorem tbl_eq (X : S10.Idx → EReal) (a b : S10x6.Idx → EReal) : tbl X a b = memb X a b :=
  table_eq X a b Gen.bcast_S10_S10x1_0 Gen.bcast_S10x1_S10x6_0_1 Gen.bcast_S_S10x6

/-- The three-row factor of a table is the chain of its rows 0, 1, 2. -/
theorem nat1_rowFac (T : S10x6.Idx → EReal) : nat1 (rowFac T) = chain (nat2 T) 0 2 := by
  unfold rowFac
  rw [nat1_stage' (n := 36) (N := 216) rfl, nat1_stage' (n := 6) (N := 36) rfl,
    nat1_rowAt 0 (by decide), nat1_rowAt 1 (by decide), nat1_rowAt 2 (by decide)]
  rfl

/-- The seven-row factor of a table is the chain of its rows 3 … 9. -/
theorem nat1_colFac (T : S10x6.Idx → EReal) : nat1 (colFac T) = chain (nat2 T) 3 6 := by
  unfold colFac
  rw [nat1_stage' (n := 46656) (N := 279936) rfl, nat1_stage' (n := 7776) (N := 46656) rfl,
    nat1_stage' (n := 1296) (N := 7776) rfl, nat1_stage' (n := 216) (N := 1296) rfl,
    nat1_stage' (n := 36) (N := 216) rfl, nat1_stage' (n := 6) (N := 36) rfl,
    nat1_rowAt 3 (by decide), nat1_rowAt 4 (by decide), nat1_rowAt 5 (by decide), nat1_rowAt 6 (by decide),
    nat1_rowAt 7 (by decide), nat1_rowAt 8 (by decide), nat1_rowAt 9 (by decide)]
  rfl

/-! ## The four buffers the region reads -/

section Theorems

variable (m : (ℓ : Loc nD τ sig) → Buf (Elt Ideal) ℓ) (c : Dev nD)

/-- The membership table of the arguments as launched, read at natural numbers. -/
abbrev hOf : ℕ → ℕ → EReal :=
  nat2 (memb (m ((c : Thread nD τ).loc main_arg0)) (m ((c : Thread nD τ).loc main_arg1)) (m ((c : Thread nD τ).loc main_arg2)))

/-- The table computed from the arguments as launched is their membership table. -/
theorem tblOf_eq : tblOf m c
    = memb (m ((c : Thread nD τ).loc main_arg0)) (m ((c : Thread nD τ).loc main_arg1)) (m ((c : Thread nD τ).loc main_arg2)) :=
  tbl_eq _ _ _

theorem hrow : nat1 (Gen.V m c main_v27 : S216.Idx → EReal) = chain (hOf m c) 0 2 := by
  rw [e27 m c, nat1_rowFac, tblOf_eq]

theorem hcol : nat1 (Gen.V m c main_v77 : S279936.Idx → EReal) = chain (hOf m c) 3 6 := by
  rw [e77 m c, nat1_colFac, tblOf_eq]

theorem hcol2 (q : Fin 279936) :
    (Gen.V m c main_v79 : S1x279936.Idx → EReal) (ix2 (0 : Fin 1) q) = chain (hOf m c) 3 6 q.val := by
  rw [e79 m c, shapeCast_a_1a_apply]
  have h := congrFun (nat1_colFac (tblOf m c)) q.val
  rw [tblOf_eq] at h
  rw [← h]
  dsimp only [nat1]
  rw [dif_pos q.isLt]
  exact congrArg (fun T => colFac T (ix1 q)) (tblOf_eq m c)

theorem y2 (p : Fin 216) (q : Fin 279936) :
    (Gen.V m c main_v78 : S216x279936.Idx → EReal) (ix2 p q)
      = flat6 (m ((c : Thread nD τ).loc main_arg3) : S10077696x6.Idx → EReal) (p.val * 279936 + q.val) := by
  have hp := p.isLt
  have hq := q.isLt
  have h0 : (p.val * 279936 + q.val) / 6 < 10077696 := by omega
  have h1 : (p.val * 279936 + q.val) % 6 < 6 := by omega
  rw [e78 m c]
  dsimp only [flat6, nat2]
  rw [dif_pos h0, dif_pos h1]
  exact shapeCast_apply _ _ (ix2 p q) (ix2 ⟨_, h0⟩ ⟨_, h1⟩) (by
    rw [Shape.rowMajor_val_two, Shape.rowMajor_val_two]
    show (p.val * 279936 + q.val) / 6 * 6 + (p.val * 279936 + q.val) % 6 = p.val * 279936 + q.val
    omega)

end Theorems

end Cert.KerHost
end
-- ==== Proof.KerTail.lean ====
/-
  The kernel's host operations after its region: the region's output column, of 216 entries, is reshaped flat,
  multiplied entry by entry by the three-row factor and summed; the three-row factor and the seven-row factor are
  summed too; and the first sum is divided by the product of the other two.  Read at natural-number indices, the
  scalar result is

      (∑ row < 216, p row · o row) / ((∑ row < 216, p row) · (∑ col < 279936, q col)),

  every operation the extended reals' own; the three zero words the sums start from are the real zero.
-/
import proofs.«178313_j27496380629713_2_alg».proof.Proof.Spec
import proofs.«178313_j27496380629713_2_alg».proof.Proof.NatRead
import proofs.«178313_j27496380629713_2_alg».proof.Proof.Gen.KernelIdeal.Frame
import Idealize.ShloMosaic.Lib.Pipeline.Value
import Idealize.ShloMosaic.PureOps.Ideal.Laws

noncomputable section

open scoped BigOperators

namespace Cert.KerTail

open Cert.KernelIdeal Cert.KernelIdeal.Gen Cert.Spec Cert.NatRead
open Idealize.ShloMosaic Idealize.ShloMosaic.TcCoe Idealize.ShloMosaic.ValueIdx Idealize.SL.Sem
open Idealize.ShloMosaic.Pipeline (Dat)

/-! ## The tail as one function of the three arrays it reads -/

/-- The host operations after the region, as one function of the three-row factor `p`, the region's output column
    `o` and the seven-row factor `q`. -/
def tail (p : FVec Ideal S216 .f32) (o : FVec Ideal S216x1 .f32) (q : FVec Ideal S279936 .f32) : FVec Ideal S_ .f32 :=
  Host.divf (F := Ideal)
    (Host.reduceAdd (F := Ideal) (mulf p (shapeCast S216 o shapeCasts_S216x1_S216))
      (constant (F := Ideal) S_ .f32 0x00000000#32) reducesTo_S216_S_d0 h_S_)
    (mulf
      (Host.reduceAdd (F := Ideal) p (constant (F := Ideal) S_ .f32 0x00000000#32) reducesTo_S216_S_d0 h_S_)
      (Host.reduceAdd (F := Ideal) q (constant (F := Ideal) S_ .f32 0x00000000#32) reducesTo_S279936_S_d0 h_S_))

/-- A host quotient at an index is the quotient of the entries. -/
theorem hostDivf_apply {s : Shape} (x y : FVec Ideal s .f32) (i : s.Idx) :
    Host.divf (F := Ideal) x y i = Ideal.div (x i) (y i) := rfl

/-- An entrywise product reads, at natural numbers, as the product of the readings (past the end, zero on both sides). -/
theorem nat1_mulf {n : ℕ} (u v : FVec Ideal ⟨1, ![n]⟩ .f32) : nat1 (mulf u v) = fun f => nat1 u f * nat1 v f := by
  funext f
  unfold nat1
  by_cases hf : f < n
  · rw [dif_pos hf, dif_pos hf, dif_pos hf]
    rfl
  · rw [dif_neg hf, dif_neg hf, dif_neg hf, zero_mul]

/-- A host sum of a whole one-axis array from the zero word is the sum of its reading over the range. -/
theorem sum_total {n : ℕ} (h : (⟨1, ![n]⟩ : Shape).ReducesTo [0] S_) (hS : 0 < S_.numel)
    (x : FVec Ideal ⟨1, ![n]⟩ .f32) (j : S_.Idx) :
    Host.reduceAdd (F := Ideal) x (constant (F := Ideal) S_ .f32 0x00000000#32) h hS j
      = ∑ f ∈ Finset.range n, nat1 x f := by
  simp only [Host.reduceAdd, Ideal.hostReduceAdd_def]
  rw [Ideal.hostReduceAdd_total h (fun b => b.elim0) x _ j, sum_idx1 x]
  show Ideal.ofBits .f32 0x00000000#32 + _ = _
  rw [Ideal.ofBits_zero_f32, zero_add]

/-- The output column reshaped flat is the column's entries in order. -/
theorem flatCol (o : FVec Ideal S216x1 .f32) :
    shapeCast S216 o shapeCasts_S216x1_S216 = fun j : S216.Idx => o (ix2 (j 0) (0 : Fin 1)) := by
  funext j
  exact shapeCast_apply o shapeCasts_S216x1_S216 j (ix2 (j 0) (0 : Fin 1))
    (by rewrite [Shape.rowMajor_val_two, Shape.rowMajor_val_one]; show (j 0).val * 1 + 0 = (j 0).val; omega)

/-- The tail's scalar, as sums over ranges. -/
theorem tail_apply (p : FVec Ideal S216 .f32) (o : FVec Ideal S216x1 .f32) (q : FVec Ideal S279936 .f32) :
    tail p o q ix0
      = Ideal.div (∑ row ∈ Finset.range 216, nat1 p row * nat1 (fun j : S216.Idx => o (ix2 (j 0) (0 : Fin 1))) row)
          ((∑ row ∈ Finset.range 216, nat1 p row) * (∑ col ∈ Finset.range 279936, nat1 q col)) := by
  unfold tail
  rw [hostDivf_apply, mulf_apply, sum_total, sum_total, sum_total, flatCol, nat1_mulf]

/-! ## The tail of the run -/

/-- From ANY buffer contents `W`, the ten operations leave in the last buffer the tail of what `W` holds at the three
    buffers they read. -/
theorem tail_after (W : Valuation τ sig (Elt Ideal)) (p : FVec Ideal S216 .f32) (o : FVec Ideal S216x1 .f32)
    (q : FVec Ideal S279936 .f32)
    (hp : (W (Proc.devRef .tc main_v27) : FVec Ideal S216 .f32) = p)
    (ho : (W (Proc.devRef .tc main_v80) : FVec Ideal S216x1 .f32) = o)
    (hq : (W (Proc.devRef .tc main_v77) : FVec Ideal S279936 .f32) = q) :
    (StableHlo.after hostOps1 W (Proc.devRef .tc main_v87) : FVec Ideal S_ .f32) = tail p o q := by
  subst hp ho hq
  after_results
  rfl

/-- What the run's last buffer holds: the tail of the three-row factor and the seven-row factor as the region found
    them and of the output array as the region left it. -/
theorem tail_value (m : (ℓ : Loc nD τ sig) → Buf (Elt Ideal) ℓ)
    (dats : (p : Fin 1) → (c : Dev nD) → Dat τ (Elt Ideal) Unit ℕ (UR sig nD τ) ℕ (cfgs p) c) (c : Dev nD) :
    (Pipeline.afterTail₀ cfgs dats 0 (Gen.V0 m) [hostOps1] c main_v87 : S_.Idx → EReal) ix0
      = Ideal.div
          (∑ row ∈ Finset.range 216, nat1 (Gen.V m c main_v27 : S216.Idx → EReal) row
            * nat1 (fun j : S216.Idx => ((dats 0 c).arrAt 2 cfg0.N : S216x1.Idx → EReal) (ix2 (j 0) (0 : Fin 1))) row)
          ((∑ row ∈ Finset.range 216, nat1 (Gen.V m c main_v27 : S216.Idx → EReal) row)
            * (∑ col ∈ Finset.range 279936, nat1 (Gen.V m c main_v77 : S279936.Idx → EReal) col)) := by
  have e80 : Pipeline.withArrays (cfgs 0).spec c (V0 m c) (fun w => (dats 0 c).arrAt w (cfgs 0).N) (Proc.devRef .tc main_v80)
      = (dats 0 c).arrAt 2 cfg0.N := Pipeline.withArrays_arr spec0 launch0.win.arr_inj c _ _ 2
  have e27 : Pipeline.withArrays (cfgs 0).spec c (V0 m c) (fun w => (dats 0 c).arrAt w (cfgs 0).N) (Proc.devRef .tc main_v27)
      = V m c main_v27 :=
    Pipeline.withArrays_of_ne _ c (V0 m c) _ main_v27 (by exact (by decide : ∀ w, Pipeline.arrRef spec0 w ≠ main_v27))
  have e77 : Pipeline.withArrays (cfgs 0).spec c (V0 m c) (fun w => (dats 0 c).arrAt w (cfgs 0).N) (Proc.devRef .tc main_v77)
      = V m c main_v77 :=
    Pipeline.withArrays_of_ne _ c (V0 m c) _ main_v77 (by exact (by decide : ∀ w, Pipeline.arrRef spec0 w ≠ main_v77))
  unfold Pipeline.afterTail₀
  exact (congrFun (tail_after _ _ _ _ e27 e80 e77) ix0).trans (tail_apply _ _ _)

end Cert.KerTail

end
-- ==== Proof.KerValue.lean ====
/-
  The kernel's scalar, in the vocabulary both programs are measured against.

  The region leaves, in row `R` of its 216 × 1 result, the sum over 27 tiles of 10368 lanes of the consequent
  table's entry `(R, q)` times the seven-row factor's entry `q`. Every lane `q = jb · 10368 + l` lies below
  279936, where the consequent table reads `y (R · 279936 + q)` and the factor reads `chain h 3 6 q`; so row
  `R` is `kerT h y R`. With the 216-entry factor `chain h 0 2` and the 279936-entry factor `chain h 3 6` in
  the other two arrays, the quotient the host operations after the region compute is `kerNum h y / kerDen h`.
-/
import proofs.«178313_j27496380629713_2_alg».proof.Proof.Spec
import proofs.«178313_j27496380629713_2_alg».proof.Proof.NatRead
import proofs.«178313_j27496380629713_2_alg».proof.Proof.KerHost
import proofs.«178313_j27496380629713_2_alg».proof.Proof.RegionOut

noncomputable section

open scoped BigOperators

namespace Cert.KerValue

open Cert.KernelIdeal Cert.KernelIdeal.Gen Cert.Spec Cert.NatRead Cert.KerHost
open Idealize.ShloMosaic Idealize.ShloMosaic.TcCoe Idealize.ShloMosaic.ValueIdx Idealize.SL.Sem

variable (m : (ℓ : Loc nD τ sig) → Buf (Elt Ideal) ℓ) (c : Dev nD)

/-- The consequents as launched, read row-major at one flat index. -/
abbrev yOf : ℕ → EReal := flat6 (m ((c : Thread nD τ).loc main_arg3) : S10077696x6.Idx → EReal)

/-- Below 279936 the 216 × 279936 reading of the consequents at `(row, q)` is flat entry `row · 279936 + q`. -/
theorem read78 (row : ℕ) (hr : row < 216) (q : ℕ) (hq : q < 279936) :
    nat2 (Gen.V m c main_v78 : S216x279936.Idx → EReal) row q = yOf m c (row * 279936 + q) := by
  unfold nat2
  rw [dif_pos hr, dif_pos hq]
  exact y2 m c ⟨row, hr⟩ ⟨q, hq⟩

/-- Below 279936 the one-row reading of the seven-row factor at `(0, q)` is the chain's entry `q`. -/
theorem read79 (q : ℕ) (hq : q < 279936) :
    nat2 (Gen.V m c main_v79 : S1x279936.Idx → EReal) 0 q = chain (hOf m c) 3 6 q := by
  unfold nat2
  rw [dif_pos Nat.one_pos, dif_pos hq]
  exact hcol2 m c ⟨q, hq⟩

/-- Row `row` of the region's result is the kernel's row sum. -/
theorem G_row (row : ℕ) (hr : row < 216) :
    RegionOut.G m c (ix2 (⟨row, hr⟩ : Fin 216) (0 : Fin 1)) = kerT (hOf m c) (yOf m c) row := by
  show (∑ jb ∈ Finset.range 27, ∑ l ∈ Finset.range 10368,
      nat2 (Gen.V m c main_v78 : S216x279936.Idx → EReal) row (jb * 10368 + l)
        * nat2 (Gen.V m c main_v79 : S1x279936.Idx → EReal) 0 (jb * 10368 + l))
    = ∑ jb ∈ Finset.range 27, ∑ l ∈ Finset.range 10368,
      yOf m c (row * 279936 + (jb * 10368 + l)) * chain (hOf m c) 3 6 (jb * 10368 + l)
  refine Finset.sum_congr rfl (fun jb hjb => Finset.sum_congr rfl (fun l hl => ?_))
  have hjb' : jb < 27 := Finset.mem_range.mp hjb
  have hl' : l < 10368 := Finset.mem_range.mp hl
  have hq : jb * 10368 + l < 279936 := by omega
  rw [read78 m c row hr _ hq, read79 m c _ hq]

/-- The quotient the host operations after the region compute is the kernel's numerator over its denominator. -/
theorem ker_value :
    Ideal.div
        (∑ row ∈ Finset.range 216, nat1 (Gen.V m c main_v27 : S216.Idx → EReal) row
          * nat1 (fun j : S216.Idx => RegionOut.G m c (ix2 (j 0) (0 : Fin 1))) row)
        ((∑ row ∈ Finset.range 216, nat1 (Gen.V m c main_v27 : S216.Idx → EReal) row)
          * (∑ col ∈ Finset.range 279936, nat1 (Gen.V m c main_v77 : S279936.Idx → EReal) col))
      = Ideal.div (kerNum (hOf m c) (yOf m c)) (kerDen (hOf m c)) := by
  rw [hrow m c, hcol m c]
  unfold kerNum kerDen
  refine congrArg₂ Ideal.div ?_ rfl
  refine Finset.sum_congr rfl (fun row hrow' => ?_)
  have hr : row < 216 := Finset.mem_range.mp hrow'
  have e : nat1 (fun j : S216.Idx => RegionOut.G m c (ix2 (j 0) (0 : Fin 1))) row = kerT (hOf m c) (yOf m c) row := by
    unfold nat1
    rw [dif_pos hr]
    exact G_row m c row hr
  rw [e]

end Cert.KerValue

end
-- ==== Proof.RefSide.lean ====
/-
  What the reference program computes, at the extended reals: its scalar result is the specification's quotient
  `refNum / refDen`.

  The reference builds the ten-by-six Gaussian membership table, then nine times multiplies the flat product of the
  rows so far (read down a column of length `n`) by the next row (read along a row of length six) and flattens the
  `n × 6` table row-major: entry `f` of the next stage is entry `f / 6` of the previous stage times entry `f % 6`
  of the new row, which is exactly one `ext` step of `chain`.  The last stage has 6¹⁰ entries; it is summed against
  the consequents read flat, and plainly, and the two sums are divided.

  Every array is read at natural-number indices (`nat1`, `nat2`), so each stage is one equation between functions
  `ℕ → EReal`, and index arithmetic at the large sizes is only ever linear arithmetic on a hypothesis `f < size`.
-/
import proofs.«178313_j27496380629713_2_alg».proof.Proof.Spec
import proofs.«178313_j27496380629713_2_alg».proof.Proof.NatRead
import proofs.«178313_j27496380629713_2_alg».proof.Proof.Gen.ReferenceIdeal.Read

noncomputable section

open scoped BigOperators

namespace Cert.RefSide

open Cert.ReferenceIdeal Cert.ReferenceIdeal.Read Cert.Spec Cert.NatRead Idealize.ShloMosaic Idealize.ShloMosaic.ValueIdx

/-! ## The membership table -/

/-- The reference's tenth value is the membership table. -/
theorem memb_eq (X : S10.Idx → EReal) (a b : S10x6.Idx → EReal) :
    val_main_v9 (F := Ideal) X a b = memb X a b := by
  funext i
  have e : idx_main_v0 (idx_main_v1 i) = ix1 (i 0) := by
    funext d; match d with | ⟨0, _⟩ => rfl
  rw [val_main_v9_apply, val_main_v8_apply, val_main_v7_apply, val_main_v6_apply, val_main_cst_apply,
    val_main_v5_apply, val_main_v4_apply, val_main_v3_apply, val_main_v2_apply, val_main_v1_apply,
    val_main_v0_apply, e]
  simp only [Ideal.hostUnary_exp_def, Ideal.hostDivf_def, Ideal.hostNegf_def, Ideal.negf_def, Ideal.mulf_def,
    Ideal.subf_def, Ideal.ofBits_def]
  rfl

/-! ## The ten rows of the table, each sliced out and flattened -/

variable (X : S10.Idx → EReal) (a b : S10x6.Idx → EReal)

/-- Row 0, which is also the chain's first stage. -/
theorem row0 : nat1 (val_main_v11 (F := Ideal) X a b) = nat2 (memb X a b) 0 :=
  row_eq (memb X a b) (val_main_v11 (F := Ideal) X a b) 0 (by omega) (fun i => idx_main_v10 (idx_main_v11 i))
    (fun i => rfl) (fun i => rfl) (fun i => by rw [val_main_v11_apply, val_main_v10_apply, memb_eq])

/-- Row 1. -/
theorem row1 : nat1 (val_main_v14 (F := Ideal) X a b) = nat2 (memb X a b) 1 :=
  row_eq (memb X a b) (val_main_v14 (F := Ideal) X a b) 1 (by omega) (fun i => idx_main_v13 (idx_main_v14 i))
    (fun i => rfl) (fun i => rfl) (fun i => by rw [val_main_v14_apply, val_main_v13_apply, memb_eq])

/-- Row 2. -/
theorem row2 : nat1 (val_main_v22 (F := Ideal) X a b) = nat2 (memb X a b) 2 :=
  row_eq (memb X a b) (val_main_v22 (F := Ideal) X a b) 2 (by omega) (fun i => idx_main_v21 (idx_main_v22 i))
    (fun i => rfl) (fun i => rfl) (fun i => by rw [val_main_v22_apply, val_main_v21_apply, memb_eq])

/-- Row 3. -/
theorem row3 : nat1 (val_main_v30 (F := Ideal) X a b) = nat2 (memb X a b) 3 :=
  row_eq (memb X a b) (val_main_v30 (F := Ideal) X a b) 3 (by omega) (fun i => idx_main_v29 (idx_main_v30 i))
    (fun i => rfl) (fun i => rfl) (fun i => by rw [val_main_v30_apply, val_main_v29_apply, memb_eq])

/-- Row 4. -/
theorem row4 : nat1 (val_main_v38 (F := Ideal) X a b) = nat2 (memb X a b) 4 :=
  row_eq (memb X a b) (val_main_v38 (F := Ideal) X a b) 4 (by omega) (fun i => idx_main_v37 (idx_main_v38 i))
    (fun i => rfl) (fun i => rfl) (fun i => by rw [val_main_v38_apply, val_main_v37_apply, memb_eq])

/-- Row 5. -/
theorem row5 : nat1 (val_main_v46 (F := Ideal) X a b) = nat2 (memb X a b) 5 :=
  row_eq (memb X a b) (val_main_v46 (F := Ideal) X a b) 5 (by omega) (fun i => idx_main_v45 (idx_main_v46 i))
    (fun i => rfl) (fun i => rfl) (fun i => by rw [val_main_v46_apply, val_main_v45_apply, memb_eq])

/-- Row 6. -/
theorem row6 : nat1 (val_main_v54 (F := Ideal) X a b) = nat2 (memb X a b) 6 :=
  row_eq (memb X a b) (val_main_v54 (F := Ideal) X a b) 6 (by omega) (fun i => idx_main_v53 (idx_main_v54 i))
    (fun i => rfl) (fun i => rfl) (fun i => by rw [val_main_v54_apply, val_main_v53_apply, memb_eq])

/-- Row 7. -/
theorem row7 : nat1 (val_main_v62 (F := Ideal) X a b) = nat2 (memb X a b) 7 :=
  row_eq (memb X a b) (val_main_v62 (F := Ideal) X a b) 7 (by omega) (fun i => idx_main_v61 (idx_main_v62 i))
    (fun i => rfl) (fun i => rfl) (fun i => by rw [val_main_v62_apply, val_main_v61_apply, memb_eq])

/-- Row 8. -/
theorem row8 : nat1 (val_main_v70 (F := Ideal) X a b) = nat2 (memb X a b) 8 :=
  row_eq (memb X a b) (val_main_v70 (F := Ideal) X a b) 8 (by omega) (fun i => idx_main_v69 (idx_main_v70 i))
    (fun i => rfl) (fun i => rfl) (fun i => by rw [val_main_v70_apply, val_main_v69_apply, memb_eq])

/-- Row 9. -/
theorem row9 : nat1 (val_main_v78 (F := Ideal) X a b) = nat2 (memb X a b) 9 :=
  row_eq (memb X a b) (val_main_v78 (F := Ideal) X a b) 9 (by omega) (fun i => idx_main_v77 (idx_main_v78 i))
    (fun i => rfl) (fun i => rfl) (fun i => by rw [val_main_v78_apply, val_main_v77_apply, memb_eq])

/-! ## The nine chain steps: stage `s` is the flat product of rows `0 … s` -/

/-- Stage 0 is row 0. -/
theorem stage0 : nat1 (val_main_v11 (F := Ideal) X a b) = chain (nat2 (memb X a b)) 0 0 := row0 X a b

/-- Stage 1: 36 entries, entry `f` being entry `f / 6` of stage 0 times entry `f % 6` of row 1. -/
theorem stage1 : nat1 (val_main_v19 (F := Ideal) X a b) = chain (nat2 (memb X a b)) 0 1 := by
  rw [step_eq (by norm_num) (val_main_v11 (F := Ideal) X a b) (val_main_v14 (F := Ideal) X a b) (val_main_v19 (F := Ideal) X a b)
    (fun i => idx_main_v12 (idx_main_v16 (idx_main_v19 i))) (fun i => idx_main_v15 (idx_main_v17 (idx_main_v19 i)))
    (fun i => rfl) (fun i => rfl)
    (fun i => by
      rw [val_main_v19_apply, val_main_v18_apply, val_main_v16_apply, val_main_v17_apply,
        val_main_v12_apply, val_main_v15_apply]
      rfl),
    stage0 X a b, row1 X a b]
  rfl

/-- Stage 2: 216 entries, entry `f` being entry `f / 6` of stage 1 times entry `f % 6` of row 2. -/
theorem stage2 : nat1 (val_main_v27 (F := Ideal) X a b) = chain (nat2 (memb X a b)) 0 2 := by
  rw [step_eq (by norm_num) (val_main_v19 (F := Ideal) X a b) (val_main_v22 (F := Ideal) X a b) (val_main_v27 (F := Ideal) X a b)
    (fun i => idx_main_v20 (idx_main_v24 (idx_main_v27 i))) (fun i => idx_main_v23 (idx_main_v25 (idx_main_v27 i)))
    (fun i => rfl) (fun i => rfl)
    (fun i => by
      rw [val_main_v27_apply, val_main_v26_apply, val_main_v24_apply, val_main_v25_apply,
        val_main_v20_apply, val_main_v23_apply]
      rfl),
    stage1 X a b, row2 X a b]
  rfl

/-- Stage 3: 1296 entries, entry `f` being entry `f / 6` of stage 2 times entry `f % 6` of row 3. -/
theorem stage3 : nat1 (val_main_v35 (F := Ideal) X a b) = chain (nat2 (memb X a b)) 0 3 := by
  rw [step_eq (by norm_num) (val_main_v27 (F := Ideal) X a b) (val_main_v30 (F := Ideal) X a b) (val_main_v35 (F := Ideal) X a b)
    (fun i => idx_main_v28 (idx_main_v32 (idx_main_v35 i))) (fun i => idx_main_v31 (idx_main_v33 (idx_main_v35 i)))
    (fun i => rfl) (fun i => rfl)
    (fun i => by
      rw [val_main_v35_apply, val_main_v34_apply, val_main_v32_apply, val_main_v33_apply,
        val_main_v28_apply, val_main_v31_apply]
      rfl),
    stage2 X a b, row3 X a b]
  rfl

/-- Stage 4: 7776 entries, entry `f` being entry `f / 6` of stage 3 times entry `f % 6` of row 4. -/
theorem stage4 : nat1 (val_main_v43 (F := Ideal) X a b) = chain (nat2 (memb X a b)) 0 4 := by
  rw [step_eq (by norm_num) (val_main_v35 (F := Ideal) X a b) (val_main_v38 (F := Ideal) X a b) (val_main_v43 (F := Ideal) X a b)
    (fun i => idx_main_v36 (idx_main_v40 (idx_main_v43 i))) (fun i => idx_main_v39 (idx_main_v41 (idx_main_v43 i)))
    (fun i => rfl) (fun i => rfl)
    (fun i => by
      rw [val_main_v43_apply, val_main_v42_apply, val_main_v40_apply, val_main_v41_apply,
        val_main_v36_apply, val_main_v39_apply]
      rfl),
    stage3 X a b, row4 X a b]
  rfl

/-- Stage 5: 46656 entries, entry `f` being entry `f / 6` of stage 4 times entry `f % 6` of row 5. -/
theorem stage5 : nat1 (val_main_v51 (F := Ideal) X a b) = chain (nat2 (memb X a b)) 0 5 := by
  rw [step_eq (by norm_num) (val_main_v43 (F := Ideal) X a b) (val_main_v46 (F := Ideal) X a b) (val_main_v51 (F := Ideal) X a b)
    (fun i => idx_main_v44 (idx_main_v48 (idx_main_v51 i))) (fun i => idx_main_v47 (idx_main_v49 (idx_main_v51 i)))
    (fun i => rfl) (fun i => rfl)
    (fun i => by
      rw [val_main_v51_apply, val_main_v50_apply, val_main_v48_apply, val_main_v49_apply,
        val_main_v44_apply, val_main_v47_apply]
      rfl),
    stage4 X a b, row5 X a b]
  rfl

/-- Stage 6: 279936 entries, entry `f` being entry `f / 6` of stage 5 times entry `f % 6` of row 6. -/
theorem stage6 : nat1 (val_main_v59 (F := Ideal) X a b) = chain (nat2 (memb X a b)) 0 6 := by
  rw [step_eq (by norm_num) (val_main_v51 (F := Ideal) X a b) (val_main_v54 (F := Ideal) X a b) (val_main_v59 (F := Ideal) X a b)
    (fun i => idx_main_v52 (idx_main_v56 (idx_main_v59 i))) (fun i => idx_main_v55 (idx_main_v57 (idx_main_v59 i)))
    (fun i => rfl) (fun i => rfl)
    (fun i => by
      rw [val_main_v59_apply, val_main_v58_apply, val_main_v56_apply, val_main_v57_apply,
        val_main_v52_apply, val_main_v55_apply]
      rfl),
    stage5 X a b, row6 X a b]
  rfl

/-- Stage 7: 1679616 entries, entry `f` being entry `f / 6` of stage 6 times entry `f % 6` of row 7. -/
theorem stage7 : nat1 (val_main_v67 (F := Ideal) X a b) = chain (nat2 (memb X a b)) 0 7 := by
  rw [step_eq (by norm_num) (val_main_v59 (F := Ideal) X a b) (val_main_v62 (F := Ideal) X a b) (val_main_v67 (F := Ideal) X a b)
    (fun i => idx_main_v60 (idx_main_v64 (idx_main_v67 i))) (fun i => idx_main_v63 (idx_main_v65 (idx_main_v67 i)))
    (fun i => rfl) (fun i => rfl)
    (fun i => by
      rw [val_main_v67_apply, val_main_v66_apply, val_main_v64_apply, val_main_v65_apply,
        val_main_v60_apply, val_main_v63_apply]
      rfl),
    stage6 X a b, row7 X a b]
  rfl

/-- Stage 8: 10077696 entries, entry `f` being entry `f / 6` of stage 7 times entry `f % 6` of row 8. -/
theorem stage8 : nat1 (val_main_v75 (F := Ideal) X a b) = chain (nat2 (memb X a b)) 0 8 := by
  rw [step_eq (by norm_num) (val_main_v67 (F := Ideal) X a b) (val_main_v70 (F := Ideal) X a b) (val_main_v75 (F := Ideal) X a b)
    (fun i => idx_main_v68 (idx_main_v72 (idx_main_v75 i))) (fun i => idx_main_v71 (idx_main_v73 (idx_main_v75 i)))
    (fun i => rfl) (fun i => rfl)
    (fun i => by
      rw [val_main_v75_apply, val_main_v74_apply, val_main_v72_apply, val_main_v73_apply,
        val_main_v68_apply, val_main_v71_apply]
      rfl),
    stage7 X a b, row8 X a b]
  rfl

/-- Stage 9: 60466176 entries, entry `f` being entry `f / 6` of stage 8 times entry `f % 6` of row 9. -/
theorem stage9 : nat1 (val_main_v83 (F := Ideal) X a b) = chain (nat2 (memb X a b)) 0 9 := by
  rw [step_eq (by norm_num) (val_main_v75 (F := Ideal) X a b) (val_main_v78 (F := Ideal) X a b) (val_main_v83 (F := Ideal) X a b)
    (fun i => idx_main_v76 (idx_main_v80 (idx_main_v83 i))) (fun i => idx_main_v79 (idx_main_v81 (idx_main_v83 i)))
    (fun i => rfl) (fun i => rfl)
    (fun i => by
      rw [val_main_v83_apply, val_main_v82_apply, val_main_v80_apply, val_main_v81_apply,
        val_main_v76_apply, val_main_v79_apply]
      rfl),
    stage8 X a b, row9 X a b]
  rfl

/-! ## The two sums and the quotient -/

/-- The consequents reshaped flat are the table read row-major. -/
theorem flat_eq (y : S10077696x6.Idx → EReal) (f : ℕ) (hf : f < 60466176) :
    nat1 (val_main_v84 (F := Ideal) y) f = flat6 y f := by
  have e := val_main_v84_apply (F := Ideal) y (ix1 ⟨f, hf⟩)
  rw [nat1_at (val_main_v84 (F := Ideal) y), nat2_at y] at e
  exact e

/-- The plain sum of the last stage is the specification's denominator. -/
theorem den_eq : ∑ j : S60466176.Idx, val_main_v83 (F := Ideal) X a b j = refDen (nat2 (memb X a b)) := by
  rw [sum_idx1 (val_main_v83 (F := Ideal) X a b), stage9 X a b]
  rfl

/-- The sum of the last stage against the flat consequents is the specification's numerator. -/
theorem num_eq (y : S10077696x6.Idx → EReal) :
    ∑ j : S60466176.Idx, val_main_v85 (F := Ideal) X a b y j = refNum (nat2 (memb X a b)) (flat6 y) := by
  rw [sum_idx1 (val_main_v85 (F := Ideal) X a b y)]
  unfold refNum
  refine Finset.sum_congr rfl (fun f hf => ?_)
  have hf' : f < 60466176 := Finset.mem_range.mp hf
  rw [← stage9 X a b, ← flat_eq y f hf']
  have e := val_main_v85_apply (F := Ideal) X a b y (ix1 ⟨f, hf'⟩)
  rw [nat1_at (val_main_v85 (F := Ideal) X a b y), nat1_at (val_main_v83 (F := Ideal) X a b),
    nat1_at (val_main_v84 (F := Ideal) y), Ideal.mulf_def] at e
  exact e

/-- The reference's result is the specification's quotient. -/
theorem ref_value (y : S10077696x6.Idx → EReal) :
    val_main_v88 (F := Ideal) X a b y ix0
      = Ideal.div (refNum (nat2 (memb X a b)) (flat6 y)) (refDen (nat2 (memb X a b))) := by
  rw [val_main_v88_apply, val_main_v86_apply, val_main_v87_apply, val_main_cst_0_apply, val_main_cst_1_apply,
    num_eq X a b y, den_eq X a b]
  simp only [Ideal.hostDivf_def, Ideal.ofBits_def, Ideal.ofBits_zero_f32, zero_add]

end Cert.RefSide

end
-- ==== Proof.Algebra.lean ====
/-
  Pure algebra behind the two programs: a ten-row outer-product chain factors as
  (rows 0‥2) × (rows 3‥9); a sum over a range of length A · B is a double sum; and, when every entry is a real
  number, multiplication distributes over the finite sums involved.
-/
import proofs.«178313_j27496380629713_2_alg».proof.Proof.Spec
import Mathlib

open scoped BigOperators

namespace Cert.Algebra

open Cert.Spec

/-- The coercion of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A sum over a range of length `A * B` read as `A` blocks of length `B`. -/
theorem sum_range_mul {M : Type*} [AddCommMonoid M] (g : ℕ → M) (A B : ℕ) :
    ∑ f ∈ Finset.range (A * B), g f = ∑ p ∈ Finset.range A, ∑ q ∈ Finset.range B, g (p * B + q) := by
  induction A with
  | zero => simp
  | succ A ih => rw [Nat.succ_mul, Finset.sum_range_add, ih, Finset.sum_range_succ]

/-- The real counterpart of `ext`. -/
def rext (u v : ℕ → ℝ) : ℕ → ℝ := fun f => u (f / 6) * v (f % 6)

/-- The real counterpart of `chain`. -/
def rchain (h : ℕ → ℕ → ℝ) (lo : ℕ) : ℕ → ℕ → ℝ
  | 0 => h lo
  | n + 1 => rext (rchain h lo n) (h (lo + n + 1))

/-- A chain of real entries is the coercion of the real chain. -/
theorem chain_coe (h : ℕ → ℕ → ℝ) (lo n f : ℕ) :
    chain (fun k q => (h k q : EReal)) lo n f = ((rchain h lo n f : ℝ) : EReal) := by
  induction n generalizing f with
  | zero => rfl
  | succ n ih => simp only [chain, ext, rchain, rext, ih, EReal.coe_mul]

/-- The factorisation: rows `lo ‥ lo+n+1+s` at the flat index `row * 6^(s+1) + col` are
    rows `lo ‥ lo+n` at `row` times rows `lo+n+1 ‥ lo+n+1+s` at `col`. -/
theorem rchain_split (h : ℕ → ℕ → ℝ) (lo n s row col : ℕ) (hc : col < 6 ^ (s + 1)) :
    rchain h lo (n + 1 + s) (row * 6 ^ (s + 1) + col)
      = rchain h lo n row * rchain h (lo + n + 1) s col := by
  induction s generalizing col with
  | zero =>
    have h6 : (6 : ℕ) ^ (0 + 1) = 6 := by norm_num
    rw [h6] at hc
    rw [h6]
    show rchain h lo n ((row * 6 + col) / 6) * h (lo + n + 1) ((row * 6 + col) % 6)
      = rchain h lo n row * h (lo + n + 1) col
    have e1 : (row * 6 + col) / 6 = row := by omega
    have e2 : (row * 6 + col) % 6 = col := by omega
    rw [e1, e2]
  | succ s ih =>
    have hM : (6 : ℕ) ^ (s + 1 + 1) = 6 ^ (s + 1) * 6 := pow_succ _ _
    rw [hM] at hc
    rw [hM]
    generalize (6 : ℕ) ^ (s + 1) = M at hc ih
    have ex : row * (M * 6) + col = (row * M) * 6 + col := by ring
    rw [ex]
    generalize hT : row * M = T at *
    show rchain h lo (n + 1 + s) ((T * 6 + col) / 6) * h (lo + (n + 1 + s) + 1) ((T * 6 + col) % 6)
      = rchain h lo n row * (rchain h (lo + n + 1) s (col / 6) * h (lo + n + 1 + s + 1) (col % 6))
    have e1 : (T * 6 + col) / 6 = T + col / 6 := by omega
    have e2 : (T * 6 + col) % 6 = col % 6 := by omega
    have e3 : lo + (n + 1 + s) + 1 = lo + n + 1 + s + 1 := by omega
    have hc' : col / 6 < M := by omega
    rw [e1, e2, e3, ih (col / 6) hc', mul_assoc]

/-- The numerators agree over the reals. -/
theorem rnum (h : ℕ → ℕ → ℝ) (y : ℕ → ℝ) :
    (∑ row ∈ Finset.range 216, rchain h 0 2 row *
        ∑ jb ∈ Finset.range 27, ∑ l ∈ Finset.range 10368,
          y (row * 279936 + (jb * 10368 + l)) * rchain h 3 6 (jb * 10368 + l))
      = ∑ f ∈ Finset.range 60466176, rchain h 0 9 f * y f := by
  have e1 : (60466176 : ℕ) = 216 * 279936 := by norm_num
  have e2 : (279936 : ℕ) = 6 ^ (6 + 1) := by norm_num
  rw [e1, sum_range_mul]
  refine Finset.sum_congr rfl (fun row _ => ?_)
  rw [← sum_range_mul (fun c => y (row * 279936 + c) * rchain h 3 6 c) 27 10368]
  have e3 : (27 : ℕ) * 10368 = 279936 := by norm_num
  rw [e3, Finset.mul_sum]
  refine Finset.sum_congr rfl (fun col hcol => ?_)
  have hc : col < 6 ^ (6 + 1) := by rw [← e2]; exact Finset.mem_range.mp hcol
  have := rchain_split h 0 2 6 row col hc
  rw [← e2] at this
  have e4 : rchain h 0 9 (row * 279936 + col) = rchain h 0 2 row * rchain h 3 6 col := this
  rw [e4]; ring

/-- The denominators agree over the reals. -/
theorem rden (h : ℕ → ℕ → ℝ) :
    (∑ row ∈ Finset.range 216, rchain h 0 2 row) * (∑ col ∈ Finset.range 279936, rchain h 3 6 col)
      = ∑ f ∈ Finset.range 60466176, rchain h 0 9 f := by
  have e1 : (60466176 : ℕ) = 216 * 279936 := by norm_num
  have e2 : (279936 : ℕ) = 6 ^ (6 + 1) := by norm_num
  rw [e1, sum_range_mul, Finset.sum_mul_sum]
  refine Finset.sum_congr rfl (fun row _ => ?_)
  refine Finset.sum_congr rfl (fun col hcol => ?_)
  have hc : col < 6 ^ (6 + 1) := by rw [← e2]; exact Finset.mem_range.mp hcol
  have := rchain_split h 0 2 6 row col hc
  rw [← e2] at this
  have e4 : rchain h 0 9 (row * 279936 + col) = rchain h 0 2 row * rchain h 3 6 col := this
  rw [e4]

/-- The kernel's numerator and denominator equal the reference's whenever every entry is a real number. -/
theorem ker_eq_ref (h : ℕ → ℕ → EReal) (y : ℕ → EReal)
    (hh : ∀ k q, ∃ r : ℝ, h k q = (r : EReal)) (hy : ∀ f, ∃ r : ℝ, y f = (r : EReal)) :
    Cert.Spec.kerNum h y = Cert.Spec.refNum h y ∧ Cert.Spec.kerDen h = Cert.Spec.refDen h := by
  choose hr hhr using hh
  choose yr hyr using hy
  obtain rfl : h = fun k q => (hr k q : EReal) := by funext k q; exact hhr k q
  obtain rfl : y = fun f => (yr f : EReal) := by funext f; exact hyr f
  constructor
  · have := congrArg (fun x : ℝ => (x : EReal)) (rnum hr yr)
    simp only [coe_sum, EReal.coe_mul] at this
    simp only [kerNum, kerT, refNum, chain_coe]
    exact this
  · have := congrArg (fun x : ℝ => (x : EReal)) (rden hr)
    simp only [coe_sum, EReal.coe_mul] at this
    simp only [kerDen, refDen, chain_coe]
    exact this

end Cert.Algebra
-- ==== Proof.Finite.lean ====
/-
  Finiteness: with real inputs every membership value `exp (-(a - X)² / (2 · b²))` is a real number (a zero width
  makes the quotient `⊥`, whose exponential is `0`), and so is every entry of an array of reals read at natural
  numbers.
-/
import proofs.«178313_j27496380629713_2_alg».proof.Proof.Spec
import Mathlib

noncomputable section

namespace Cert.Finite

open Idealize.ShloMosaic Idealize.ShloMosaic.ValueIdx Cert.Spec

/-- The pattern `0x40000000` denotes the real number `2`. -/
theorem ofBits_two : Ideal.ofBits .f32 0x40000000#32 = ((2 : ℝ) : EReal) := by
  simp [Ideal.ofBits, Ideal.ieee, -EReal.coe_mul]; norm_num

/-- The exponential of a quotient whose numerator is a real `≤ 0` and whose denominator is a real is a real:
    a zero denominator gives `exp ⊥ = 0`. -/
theorem exp_div_real (n d : ℝ) (hn : n ≤ 0) :
    ∃ r : ℝ, Ideal.exp (Ideal.div (n : EReal) (d : EReal)) = (r : EReal) := by
  by_cases hd : d = 0
  · subst hd
    have hpos : ¬ (0 : EReal) < (n : EReal) := by
      rw [EReal.coe_pos]; exact not_lt.mpr hn
    refine ⟨0, ?_⟩
    simp [Ideal.div, hpos]
  · rw [Ideal.div_coe hd, ← EReal.coe_mul]
    exact ⟨_, rfl⟩

/-- Every membership value of real inputs is a real number. -/
theorem memb_real (X : (⟨1, ![10]⟩ : Shape).Idx → EReal) (a b : (⟨2, ![10, 6]⟩ : Shape).Idx → EReal)
    (hX : ∀ i, ∃ r : ℝ, X i = (r : EReal)) (ha : ∀ i, ∃ r : ℝ, a i = (r : EReal))
    (hb : ∀ i, ∃ r : ℝ, b i = (r : EReal)) : ∀ i, ∃ r : ℝ, memb X a b i = (r : EReal) := by
  intro i
  obtain ⟨xr, hx⟩ := hX (ix1 (i 0))
  obtain ⟨ar, har⟩ := ha i
  obtain ⟨br, hbr⟩ := hb i
  simp only [memb, hx, har, hbr, ofBits_two, ← EReal.coe_sub, ← EReal.coe_mul, ← EReal.coe_neg]
  exact exp_div_real _ _ (by nlinarith [mul_self_nonneg (ar - xr)])

/-- A two-axis array of reals read at two natural numbers is real (it is `0` outside the array). -/
theorem nat2_real {n0 n1 : ℕ} (f : (⟨2, ![n0, n1]⟩ : Shape).Idx → EReal)
    (hf : ∀ i, ∃ r : ℝ, f i = (r : EReal)) : ∀ p q, ∃ r : ℝ, nat2 f p q = (r : EReal) := by
  intro p q
  unfold nat2
  split_ifs
  · exact hf _
  · exact ⟨0, EReal.coe_zero.symm⟩
  · exact ⟨0, EReal.coe_zero.symm⟩

/-- The membership table read at two natural numbers is real. -/
theorem nat2_memb_real (X : (⟨1, ![10]⟩ : Shape).Idx → EReal) (a b : (⟨2, ![10, 6]⟩ : Shape).Idx → EReal)
    (hX : ∀ i, ∃ r : ℝ, X i = (r : EReal)) (ha : ∀ i, ∃ r : ℝ, a i = (r : EReal))
    (hb : ∀ i, ∃ r : ℝ, b i = (r : EReal)) : ∀ k q, ∃ r : ℝ, nat2 (memb X a b) k q = (r : EReal) :=
  nat2_real _ (memb_real X a b hX ha hb)

/-- A six-column table of reals read row-major at one flat index is real. -/
theorem flat6_real {n0 : ℕ} (y : (⟨2, ![n0, 6]⟩ : Shape).Idx → EReal)
    (hy : ∀ i, ∃ r : ℝ, y i = (r : EReal)) : ∀ f, ∃ r : ℝ, flat6 y f = (r : EReal) :=
  fun f => nat2_real y hy (f / 6) (f % 6)

end Cert.Finite

end
-- ==== Proof.PreReal.lean ====
/-
  From the precondition to finiteness: the printed predicate is the conjunction of four `all (|x| < +∞)`, one per
  argument array; when it is all ones every entry of every argument is a real number.  The quantifier over an
  array's indices comes from the lemma that reads a reduction by `and` back, never from evaluating an index set.
-/
import proofs.«178313_j27496380629713_2_alg».proof.Defs
import Idealize.ShloMosaic.Lib.ReduceAll

noncomputable section

namespace Cert.PreReal

open Idealize.ShloMosaic Idealize.SL.Sem Cert.Pre_finite_inputs

/-- The rank-zero shape has exactly one index. -/
instance : Subsingleton S_.Idx := ⟨fun a b => funext fun d => d.elim0⟩

/-- The pattern `0x7F800000` denotes `+∞`. -/
theorem ofBits_inf : Ideal.ofBits .f32 0x7F800000#32 = ⊤ := by rfl

/-- An extended real whose absolute value `max x (-x)` compares below `+∞` is a real number. -/
theorem real_of_abs_lt_inf (x : Ideal .f32)
    (h : FloatOps.cmpf (F := Ideal) .olt (FloatOps.hostAbsf x) (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf] at h
  -- the comparison word is the truth value of `max x (-x) < ⊤`
  have h' : BitVec.ofBool (decide (max x (-x) < (⊤ : EReal))) = 1#1 := h
  have hlt : max x (-x) < (⊤ : EReal) := by
    by_contra hn
    rw [decide_eq_false hn] at h'
    exact absurd h' (by decide)
  induction x using EReal.rec with
  | bot => simp at hlt
  | coe r => exact ⟨r, rfl⟩
  | top => simp at hlt

/-- The precondition, all ones, makes every entry of every argument array a real number. -/
theorem pre_real [Facts] (x0 : FVec Ideal S10 .f32) (x1 x2 : FVec Ideal S10x6 .f32) (x3 : FVec Ideal S10077696x6 .f32)
    (h : fn (F := Ideal) x0 x1 x2 x3 = (fun _ => 1#1)) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h (fun a => a.elim0)
  dsimp only [fn, fn_part1, andi] at h0
  rw [IntOp.andi_eq_one, IntOp.andi_eq_one, IntOp.andi_eq_one] at h0
  obtain ⟨⟨⟨ha, hb⟩, hc⟩, hd⟩ := h0
  refine ⟨fun i => ?_, fun i => ?_, fun i => ?_, fun i => ?_⟩
  · exact real_of_abs_lt_inf (x0 i) (Host.reduce_andi_all _ _ _ _ _ ha i)
  · exact real_of_abs_lt_inf (x1 i) (Host.reduce_andi_all _ _ _ _ _ hb i)
  · exact real_of_abs_lt_inf (x2 i) (Host.reduce_andi_all _ _ _ _ _ hc i)
  · exact real_of_abs_lt_inf (x3 i) (Host.reduce_andi_all _ _ _ _ _ hd i)

/-- The same, read off the idealized kernel's precondition at one device. -/
theorem pre_real_mem [Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0)
        : FVec Ideal S10 .f32) i = (r : EReal))
      ∧ (∀ i, ∃ r : ℝ, (m ((c.tc : Thread Cert.KernelIdeal.nD Cert.KernelIdeal.τ).loc Cert.KernelIdeal.main_arg1)
        : FVec Ideal S10x6 .f32) i = (r : EReal))
      ∧ (∀ i, ∃ r : ℝ, (m ((c.tc : Thread Cert.KernelIdeal.nD Cert.KernelIdeal.τ).loc Cert.KernelIdeal.main_arg2)
        : FVec Ideal S10x6 .f32) i = (r : EReal))
      ∧ (∀ i, ∃ r : ℝ, (m ((c.tc : Thread Cert.KernelIdeal.nD Cert.KernelIdeal.τ).loc Cert.KernelIdeal.main_arg3)
        : FVec Ideal S10077696x6 .f32) i = (r : EReal)) :=
  pre_real _ _ _ _ (hpre c)

end Cert.PreReal

end
-- ==== Proof.lean ====
/-
  A fuzzy-rule weighted average: the kernel against its reference, over the extended reals.

  Both programs build the same 10 × 6 table of Gaussian memberships `h k q = exp (-(a k q - X k)² / (2 · (b k q)²))`.
  The reference multiplies its ten rows out into one vector of 6¹⁰ products (the last row varying fastest), sums it
  against the 6¹⁰ rule consequents `y`, and divides by its plain sum.  The kernel multiplies out rows 0‥2 (216
  products) and rows 3‥9 (279936 products) separately, reads `y` as a 216 × 279936 table, lets a pallas_call sum
  each row of the table against the column factor (two row blocks of 112 rows, the second overhanging the table by
  eight; 27 column tiles of 10368 lanes, accumulated in a scratch), then sums the 216 row sums against the row
  factor and divides by the product of the two factors' sums.

  Why they agree.  Multiplication on the extended reals is commutative and associative, so entry
  `row · 279936 + col` of the ten-row product IS the row factor at `row` times the column factor at `col`; a sum
  over 6¹⁰ = 216 · 279936 flat indices is the double sum over rows and columns, and 279936 = 27 · 10368 lanes tile
  by tile.  Moving the row factor out of a row's sum, and splitting the sum of products into the product of sums,
  are distributivity, which fails at infinities: here the precondition is used.  Every input is a real, a
  membership is `exp` of a non-positive real divided by a non-negative one, which is a real or `-∞`, so every
  membership is a real in [0, 1] (a zero width gives `exp (-∞) = 0`); hence every quantity summed is a real and
  the two quotients have equal numerators and equal denominators.

  The frames.  The word-level kernel's lane sum is an opaque function of a whole tile, and the overhanging rows of
  the second row block hold staging words nothing names, so nothing is said of its accumulator: the body runs
  whatever its buffers hold.  Over the extended reals the lane sum is taken row by row, a row of the accumulator
  depends on that row of the tile only, and the rows inside the table are named exactly; the rows past its end are
  never written back.
-/
import proofs.«178313_j27496380629713_2_alg».proof.Defs
import proofs.«178313_j27496380629713_2_alg».proof.Proof.Gen.Kernel
import proofs.«178313_j27496380629713_2_alg».proof.Proof.Gen.KernelIdeal
import proofs.«178313_j27496380629713_2_alg».proof.Proof.Gen.ReferenceIdeal
import proofs.«178313_j27496380629713_2_alg».proof.Proof.Gen.Pre_finite_inputs
import proofs.«178313_j27496380629713_2_alg».proof.Proof.Gen.ReferenceIdeal.Run
import proofs.«178313_j27496380629713_2_alg».proof.Proof.Gen.ReferenceIdeal.Read
import proofs.«178313_j27496380629713_2_alg».proof.Proof.KFrame
import proofs.«178313_j27496380629713_2_alg».proof.Proof.IBody
import proofs.«178313_j27496380629713_2_alg».proof.Proof.RegionOut
import proofs.«178313_j27496380629713_2_alg».proof.Proof.RegionValue
import proofs.«178313_j27496380629713_2_alg».proof.Proof.KerHost
import proofs.«178313_j27496380629713_2_alg».proof.Proof.KerTail
import proofs.«178313_j27496380629713_2_alg».proof.Proof.KerValue
import proofs.«178313_j27496380629713_2_alg».proof.Proof.RefSide
import proofs.«178313_j27496380629713_2_alg».proof.Proof.Algebra
import proofs.«178313_j27496380629713_2_alg».proof.Proof.Finite
import proofs.«178313_j27496380629713_2_alg».proof.Proof.PreReal
import Idealize.ShloMosaic.Adequacy
import Idealize.ShloMosaic.Init

noncomputable section

namespace Cert.Proof

open Idealize.ShloMosaic Idealize.ShloMosaic.TcCoe Idealize.ShloMosaic.ValueIdx Idealize.SL.Sem

/-- The two programs' results are one extended real: the reference's quotient of the ten-row sums is the kernel's
    quotient of the factored sums, every summand being a real under the precondition. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) :
    Cert.ReferenceIdeal.Value.res_main_v88 m' c
      = Pipeline.afterTail₀ Cert.KernelIdeal.cfgs (Cert.KernelIdeal.Body.dats m) 0 (Cert.KernelIdeal.Gen.V0 m)
          [Cert.KernelIdeal.Gen.hostOps1] c Cert.KernelIdeal.main_v87 := by
  funext i
  obtain rfl : i = ix0 := eq_ix0 i
  rw [Cert.ReferenceIdeal.Read.val_main_v88_eq, (hagree c).1, (hagree c).2.1, (hagree c).2.2.1, (hagree c).2.2.2,
    Cert.RefSide.ref_value]
  refine Eq.trans ?_ (Cert.KerTail.tail_value m (Cert.KernelIdeal.Body.dats m) c).symm
  rw [Cert.KernelIdeal.RegionValue.final_out m c, Cert.KerValue.ker_value m c]
  obtain ⟨hX, ha, hb, hy⟩ := Cert.PreReal.pre_real_mem m hpre c
  obtain ⟨hn, hd⟩ := Cert.Algebra.ker_eq_ref _ _ (Cert.Finite.nat2_memb_real _ _ _ hX ha hb) (Cert.Finite.flat6_real _ hy)
  rw [hn, hd]

/-- The word-level kernel runs and leaves its arguments. -/
theorem frame_k : Cert.frame_Kernel := fun m ρ _ => Cert.Kernel.FrameRun.frame (F := Bits) m ρ

/-- So does the idealized kernel. -/
theorem frame_ki : Cert.frame_KernelIdeal := fun m ρ _ => Cert.KernelIdeal.Body.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel ends with its result at the host lines' value over the region's row sums, the reference
    at its composed term of the same arguments; the two are one extended real (`value_eq`). -/
theorem algebraic : Cert.algebraic_KernelIdeal_ReferenceIdeal := by
  intro m ρ m' ρ' hpre hagree
  refine ⟨fun c => Pipeline.afterTail₀ Cert.KernelIdeal.cfgs (Cert.KernelIdeal.Body.dats m) 0 (Cert.KernelIdeal.Gen.V0 m)
      [Cert.KernelIdeal.Gen.hostOps1] c Cert.KernelIdeal.main_v87, ?_, ?_⟩
  · exact (θ_run Cert.KernelIdeal.defs _ _).mono (fun _ h c =>
      ⟨(h c).2 Cert.KernelIdeal.main_v87 (Pipeline.mem_restRefs_of Cert.KernelIdeal.main_v87 (by decide) (by decide)),
       ((h c).2 Cert.KernelIdeal.main_arg0 (Pipeline.mem_restRefs_of Cert.KernelIdeal.main_arg0 (by decide) (by decide))).trans
          (Cert.KernelIdeal.Gen.W_main_arg0 m (Cert.KernelIdeal.Body.dats m) c),
       ((h c).2 Cert.KernelIdeal.main_arg1 (Pipeline.mem_restRefs_of Cert.KernelIdeal.main_arg1 (by decide) (by decide))).trans
          (Cert.KernelIdeal.Gen.W_main_arg1 m (Cert.KernelIdeal.Body.dats m) c),
       ((h c).2 Cert.KernelIdeal.main_arg2 (Pipeline.mem_restRefs_of Cert.KernelIdeal.main_arg2 (by decide) (by decide))).trans
          (Cert.KernelIdeal.Gen.W_main_arg2 m (Cert.KernelIdeal.Body.dats m) c),
       ((h c).2 Cert.KernelIdeal.main_arg3 (Pipeline.mem_restRefs_of Cert.KernelIdeal.main_arg3 (by decide) (by decide))).trans
          (Cert.KernelIdeal.Gen.W_main_arg3 m (Cert.KernelIdeal.Body.dats m) c)⟩)
      (Cert.KernelIdeal.Body.run_main m ρ)
  · exact (θ_run Cert.ReferenceIdeal.defs _ _).mono (fun _ h c => ⟨(h c).1.trans (value_eq m m' hpre hagree c), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
